-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S16384x512 : Shape := ⟨2, ![16384, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S8192x512 .f32) (main_arg1 : FVec F S8192x512 .f32) (main_arg2 : FVec F S16384x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  main_v13
-- ==== Kernel.lean ====
abbrev S8192x512 : Shape := ⟨2, ![8192, 512]⟩
abbrev S16384x512 : Shape := ⟨2, ![16384, 512]⟩
abbrev S4096x512 : Shape := ⟨2, ![4096, 512]⟩
abbrev S4096 : Shape := ⟨1, ![4096]⟩
abbrev S4096x1 : Shape := ⟨2, ![4096, 1]⟩
abbrev S8192x1 : Shape := ⟨2, ![8192, 1]⟩
abbrev S2048x512 : Shape := ⟨2, ![2048, 512]⟩
abbrev S2048x1 : Shape := ⟨2, ![2048, 1]⟩
abbrev S2048 : Shape := ⟨1, ![2048]⟩
abbrev S1024x512 : Shape := ⟨2, ![1024, 512]⟩
abbrev S2048x1024 : Shape := ⟨2, ![2048, 1024]⟩
abbrev S_ : Shape := ⟨0, ![]⟩

abbrev nBuf : Space → Nat
  | .hbm => 10
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S16384x512, .f32⟩
  | .hbm, ⟨3, _⟩ => ⟨S16384x512, .bf16⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x512, .bf16⟩
  | .local _ .vmem, ⟨3, _⟩ => ⟨S4096x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S4096x512, .bf16⟩
  | .local _ .vmem, ⟨9, _⟩ => ⟨S4096x512, .bf16⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_19 : BitVec 32 := 0#32
  let v40 : BitVec 1 := Scalar.cmpi .ne v39 c0_i32_19
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S4096x512_S4096x512_0_0 : ∀ a, (![0, 0] : Fin 2 → Nat) a + S4096x512.size a ≤ S4096x512.size a
  h_S4096x512 : 0 < S4096x512.numel
  reduces_S4096x512_S4096 : S4096x512.Reduces [1] S4096
  shapeCasts_S4096_S4096x1 : S4096.ShapeCasts S4096x1
  broadcasts_S4096x1_S4096x512 : S4096x1.Broadcasts S4096x512
  bitsLt_bf16_f32 : FTy.bits .bf16 < FTy.bits .f32
  packedbf16_S4096x512_S4096x512_0_0 : (Rect.unit (s := S4096x512) ![0, 0] S4096x512.size inb_S4096x512_S4096x512_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S4096x512_S1024x512_0_0 : ∀ a, (![0, 0] : Fin 2 → Nat) a + S1024x512.size a ≤ S4096x512.size a
  h_S1024x512 : 0 < S1024x512.numel
  shapeCasts_S1024x512_S1024x512 : S1024x512.ShapeCasts S1024x512
  reduces_S2048x1024_S2048 : S2048x1024.Reduces [1] S2048
  inb_S4096x512_S1024x512_1024_0 : ∀ a, (![1024, 0] : Fin 2 → Nat) a + S1024x512.size a ≤ S4096x512.size a
  inb_S4096x512_S1024x512_2048_0 : ∀ a, (![2048, 0] : Fin 2 → Nat) a + S1024x512.size a ≤ S4096x512.size a
  inb_S4096x512_S1024x512_3072_0 : ∀ a, (![3072, 0] : Fin 2 → Nat) a + S1024x512.size a ≤ S4096x512.size a
  reducesTo_S8192x1_S_d0_1 : S8192x1.ReducesTo [0, 1] S_
  h_S_ : 0 < S_.numel
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S16384x512.size a
  hwx0_0 : ∀ i : grid0.Coords, EltTy.bits .f32 = 32 ∨ (Rect.block (s := S16384x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S16384x512.size a
  hwx0_1 : ∀ i : grid0.Coords, EltTy.bits .bf16 = 32 ∨ (Rect.block (s := S16384x512) S4096x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .f32 = 32 ∨ (Rect.block (s := S8192x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .f32 = 32 ∨ (Rect.block (s := S8192x512) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S16384x512.size a
  hwx1_2 : ∀ i : grid1.Coords, EltTy.bits .bf16 = 32 ∨ (Rect.block (s := S16384x512) S4096x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .f32 = 32 ∨ (Rect.block (s := S8192x1) S2048x1.size (cc1_transform_3 i) (hinb1_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg2) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4096x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S16384x512 : Shape := ⟨2, ![16384, 512]⟩
abbrev S_ : Shape := ⟨0, ![]⟩
abbrev S8192 : Shape := ⟨1, ![8192]⟩
abbrev S8192x1 : Shape := ⟨2, ![8192, 1]⟩
abbrev S16384 : Shape := ⟨1, ![16384]⟩
abbrev S16384x1 : Shape := ⟨2, ![16384, 1]⟩
abbrev S8192x16384 : Shape := ⟨2, ![8192, 16384]⟩

abbrev nBuf : Space → Nat
  | .hbm => 47
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S16384x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S16384x512, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x512, .f32⟩
  | .hbm, ⟨32, _⟩ => ⟨S16384x512, .f32⟩
  | .hbm, ⟨33, _⟩ => ⟨S8192x512, .f32⟩
  | .hbm, ⟨34, _⟩ => ⟨S_, .f32⟩
  | .hbm, ⟨35, _⟩ => ⟨S8192, .f32⟩
  | .hbm, ⟨36, _⟩ => ⟨S8192x16384, .f32⟩
  | .hbm, ⟨37, _⟩ => ⟨S8192x16384, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S16384x512_S16384_d1 : S16384x512.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  reducesTo_S8192x16384_S8192_d1 : S8192x16384.ReducesTo [1] S8192
  reducesTo_S8192_S_d0 : S8192.ReducesTo [0] S_
  dot_S8192x512_S16384x512_S8192x16384_1_1_0_0_n_n_wf : DotDims.WF S8192x512 S16384x512 S8192x16384 [1] [1] [0] [0] [] []

variable [Facts₀]

def dot_S8192x512_S16384x512_S8192x16384_1_1_0_0_n_n : DotDims S8192x512 S16384x512 S8192x16384 where
  lhsContracting := [1]
  rhsContracting := [1]
  lhsNonContracting := [0]
  rhsNonContracting := [0]
  lhsBatch := []
  rhsBatch := []
  wf := dot_S8192x512_S16384x512_S8192x16384_1_1_0_0_n_n_wf

class Facts : Prop extends Facts₀ where

variable [Facts]
-- ==== Proof.BitsRegion1Defs.lean ====
/-
  The second kernel region (the contrastive reduction over a 4 x 4 grid of points): what its three control
  cases are, decided over the grid; where its output window is idle; the scratch buffers as memrefs; and each
  input window's staging buffer holding its block at every point.
  Point t = 4 i + j: row block i of x and positive (2048 rows), column tile j of the normalised negatives (4096 rows).
  j = 0 resets the denominator and fills the normalised-x and similarity scratch; j = 3 writes the output block.
-/
import proofs.«172893_j85521388798178_2_alg».proof.Proof.Gen.Kernel.Launch
import proofs.«172893_j85521388798178_2_alg».proof.Proof.Gen.Kernel.Skeleton
import proofs.«172893_j85521388798178_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first branch (reset and fill) is taken where the column-tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The last branch (write the output block) is taken where the column-tile coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S2048x1 .f32 := (Memref.whole cc1_stg3_0 : Memref sig .tc .vmem S2048x1 .f32).view
abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The three scratch buffers: the denominator accumulator, the similarity column, the normalised x block. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x512 .bf16 := Memref.whole cc1_scratch2
abbrev VS1_0 : View sig .tc .vmem S2048x1 .f32 := scM1_0.view
abbrev VS1_1 : View sig .tc .vmem S2048x1 .f32 := scM1_1.view
abbrev VS1_2 : View sig .tc .vmem S2048x512 .bf16 := scM1_2.view

/-- The region's class invariant with the scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.BitsRun1A.lean ====
/-
  The second region's body run in control case A: every load, store and branch of the printed body stepped
  in order from whole staging and scratch buffers, the buffers' final contents recorded as the list of pieces stored.
-/
import proofs.«172893_j85521388798178_2_alg».proof.Proof.BitsRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first column tile (reset and fill taken, output not written): the pieces each scratch buffer
    ends with, found by running the body; the input blocks and the idle output buffer are handed back as found. -/
noncomputable def kernelRun1_A (c : Dev nD) (i : grid1.Coords) (arg2 : Memref sig .tc .vmem S2048x512 .f32) (harg2 : arg2.IsWhole) (arg3 : Memref sig .tc .vmem S2048x512 .f32) (harg3 : arg3.IsWhole) (arg4 : Memref sig .tc .vmem S4096x512 .bf16) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .bf16) (harg8 : arg8.IsWhole) (hc0 : cond1_0 i) (hc1 : ¬cond1_1 i)
    (x0 x1 : Vec F S2048x512 .f32) (x2 : Vec F S4096x512 .bf16) :
    Σ' (LS0 : List (View.Piece (Elt F) S2048x1 .f32)) (LS1 : List (View.Piece (Elt F) S2048x1 .f32)), { LS2 : List (View.Piece (Elt F) S2048x512 .bf16) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__contrastive_kernel i arg2 harg2 arg3 harg3 arg4 harg4 arg5 harg5 arg6 harg6 arg7 harg7 arg8 harg8) K } := by
  refine ⟨?_, ?_, ?_, fun xi3 E K => ?run⟩
  case run =>
    simp only [cc1__contrastive_kernel_eq_skeleton]; unfold cc1__contrastive_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.BitsRun1B.lean ====
/-
  The second region's body run in control case B: every load, store and branch of the printed body stepped
  in order from whole staging and scratch buffers, the buffers' final contents recorded as the list of pieces stored.
-/
import proofs.«172893_j85521388798178_2_alg».proof.Proof.BitsRun1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle column tile (neither branch taken): the pieces the denominator scratch ends with,
    found by running the body; the similarity and normalised-x scratch, the input blocks and the idle output
    buffer are handed back as found. -/
noncomputable def kernelRun1_B (c : Dev nD) (i : grid1.Coords) (arg2 : Memref sig .tc .vmem S2048x512 .f32) (harg2 : arg2.IsWhole) (arg3 : Memref sig .tc .vmem S2048x512 .f32) (harg3 : arg3.IsWhole) (arg4 : Memref sig .tc .vmem S4096x512 .bf16) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .bf16) (harg8 : arg8.IsWhole) (hc0 : ¬cond1_0 i) (hc1 : ¬cond1_1 i)
    (x2 : Vec F S4096x512 .bf16) (xs0 : Vec F S2048x1 .f32) (xs2 : Vec F S2048x512 .bf16) :
    { LS0 : List (View.Piece (Elt F) S2048x1 .f32) //
      ∀ (x0 x1 : Vec F S2048x512 .f32) (xi3 xs1 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ owns (c : Thread nD τ) arg7 fullShare xs1 ∗ owns (c : Thread nD τ) arg8 fullShare xs2) -∗ K ⟨⟩))
          ⊢ wp frame (wpE (defs₀ (F := F)) Variants.none c none) E (cc1__contrastive_kernel i arg2 harg2 arg3 harg3 arg4 harg4 arg5 harg5 arg6 harg6 arg7 harg7 arg8 harg8) K } := by
  refine ⟨?_, fun x0 x1 xi3 xs1 E K => ?run⟩
  case run =>
    simp only [cc1__contrastive_kernel_eq_skeleton]; unfold cc1__contrastive_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]
    · iexists _; isplitr; · ipureintro; exact harg7.read_unread _
      iexact HS1
    iexists _; isplitr; · ipureintro; exact harg8.read_unread _
    iexact HS2

end Cert.Kernel.Hand

end
-- ==== Proof.BitsRun1C.lean ====
/-
  The second region's body run in control case C: every load, store and branch of the printed body stepped
  in order from whole staging and scratch buffers, the buffers' final contents recorded as the list of pieces stored.
-/
import proofs.«172893_j85521388798178_2_alg».proof.Proof.BitsRun1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last column tile (output written): the pieces the output buffer and the denominator scratch
    end with, found by running the body; the other buffers are handed back as found. -/
noncomputable def kernelRun1_C (c : Dev nD) (i : grid1.Coords) (arg2 : Memref sig .tc .vmem S2048x512 .f32) (harg2 : arg2.IsWhole) (arg3 : Memref sig .tc .vmem S2048x512 .f32) (harg3 : arg3.IsWhole) (arg4 : Memref sig .tc .vmem S4096x512 .bf16) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .bf16) (harg8 : arg8.IsWhole) (hc0 : ¬cond1_0 i) (hc1 : cond1_1 i)
    (x2 : Vec F S4096x512 .bf16) (xs0 xs1 : Vec F S2048x1 .f32) (xs2 : Vec F S2048x512 .bf16) :
    Σ' (L3 : List (View.Piece (Elt F) S2048x1 .f32)), { LS0 : List (View.Piece (Elt F) S2048x1 .f32) //
      ∀ (x0 x1 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ owns (c : Thread nD τ) arg7 fullShare xs1 ∗ owns (c : Thread nD τ) arg8 fullShare xs2) -∗ K ⟨⟩))
          ⊢ wp frame (wpE (defs₀ (F := F)) Variants.none c none) E (cc1__contrastive_kernel i arg2 harg2 arg3 harg3 arg4 harg4 arg5 harg5 arg6 harg6 arg7 harg7 arg8 harg8) K } := by
  refine ⟨?_, ?_, fun x0 x1 E K => ?run⟩
  case run =>
    simp only [cc1__contrastive_kernel_eq_skeleton]; unfold cc1__contrastive_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]
    · iexists _; isplitr; · ipureintro; exact harg7.read_unread _
      iexact HS1
    iexists _; isplitr; · ipureintro; exact harg8.read_unread _
    iexact HS2

end Cert.Kernel.Hand

end
-- ==== Proof.BitsFrame1.lean ====
/-
  The second region point by point: what the output buffer and the three scratch buffers hold after each grid
  point (by recursion on the point, from the case the point is in), the region's invariant carrying the scratch
  contents from one point to the next, the proof data, and the body obligation at every point.
-/
import proofs.«172893_j85521388798178_2_alg».proof.Proof.BitsRun1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What each case leaves -/

/-- Placeholder contents of the output buffer at a point that stores nothing into it (never consulted). -/
def idle3 : Vec F S2048x1 .f32 := VO1_3.read (Elt F) VO1_3.junk

section A
variable (c : Dev nD) (t : Fin cfg1.N) (h0 : t.val % 4 = 0) (h1 : ¬t.val % 4 = 3) (x0 x1 : Vec F S2048x512 .f32) (x2 : Vec F S4096x512 .bf16)
def sout1_A_0 : Vec F S2048x1 .f32 := VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).1)
def sout1_A_1 : Vec F S2048x1 .f32 := VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.1)
def sout1_A_2 : Vec F S2048x512 .bf16 := VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.2.1)
theorem scover1_A_0 (y : S2048x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).1 S2048x1.size (by sl_kernel_rfl) y
theorem scover1_A_1 (y : S2048x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.1 S2048x1.size (by sl_kernel_rfl) y
theorem scover1_A_2 (y : S2048x512.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.2.1 S2048x512.size (by sl_kernel_rfl) y
end A

section B
variable (c : Dev nD) (t : Fin cfg1.N) (h0 : ¬t.val % 4 = 0) (h1 : ¬t.val % 4 = 3) (x2 : Vec F S4096x512 .bf16) (xs0 : Vec F S2048x1 .f32) (xs2 : Vec F S2048x512 .bf16)
def sout1_B_0 : Vec F S2048x1 .f32 := VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) x2 xs0 xs2).1)
theorem scover1_B_0 (y : S2048x1.Idx) : ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) x2 xs0 xs2).1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) x2 xs0 xs2).1 S2048x1.size (by sl_kernel_rfl) y
end B

section C
variable (c : Dev nD) (t : Fin cfg1.N) (h0 : ¬t.val % 4 = 0) (h1 : t.val % 4 = 3) (x2 : Vec F S4096x512 .bf16) (xs0 xs1 : Vec F S2048x1 .f32) (xs2 : Vec F S2048x512 .bf16)
def out1_C_3 : Vec F S2048x1 .f32 := VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).1)
def sout1_C_0 : Vec F S2048x1 .f32 := VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).2.1)
theorem cover1_C_3 (y : S2048x1.Idx) : ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).1 S2048x1.size (by sl_kernel_rfl) y
theorem scover1_C_0 (y : S2048x1.Idx) : ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).2.1 S2048x1.size (by sl_kernel_rfl) y
end C

/-! ## Point by point -/

/-- After a point of the first column tile: the scratch as that case fills it from the point's input blocks. -/
def tupA (c : Dev nD) (t : Fin cfg1.N) (h0 : t.val % 4 = 0) (h1 : ¬t.val % 4 = 3) : Vec F S2048x1 .f32 × Vec F S2048x1 .f32 × Vec F S2048x1 .f32 × Vec F S2048x512 .bf16 :=
  (idle3, sout1_A_0 c t h0 h1 (iblk1 V c 0 t) (iblk1 V c 1 t) (iblk1 V c 2 t), sout1_A_1 c t h0 h1 (iblk1 V c 0 t) (iblk1 V c 1 t) (iblk1 V c 2 t), sout1_A_2 c t h0 h1 (iblk1 V c 0 t) (iblk1 V c 1 t) (iblk1 V c 2 t))
/-- After a middle point: the denominator accumulated over what the point before left, the rest kept. -/
def tupB (c : Dev nD) (t : Fin cfg1.N) (h0 : ¬t.val % 4 = 0) (h1 : ¬t.val % 4 = 3) (prev : Vec F S2048x1 .f32 × Vec F S2048x1 .f32 × Vec F S2048x1 .f32 × Vec F S2048x512 .bf16) : Vec F S2048x1 .f32 × Vec F S2048x1 .f32 × Vec F S2048x1 .f32 × Vec F S2048x512 .bf16 :=
  (idle3, sout1_B_0 c t h0 h1 (iblk1 V c 2 t) prev.2.1 prev.2.2.2, prev.2.2.1, prev.2.2.2)
/-- After a point of the last column tile: also the output block. -/
def tupC (c : Dev nD) (t : Fin cfg1.N) (h0 : ¬t.val % 4 = 0) (h1 : t.val % 4 = 3) (prev : Vec F S2048x1 .f32 × Vec F S2048x1 .f32 × Vec F S2048x1 .f32 × Vec F S2048x512 .bf16) : Vec F S2048x1 .f32 × Vec F S2048x1 .f32 × Vec F S2048x1 .f32 × Vec F S2048x512 .bf16 :=
  (out1_C_3 c t h0 h1 (iblk1 V c 2 t) prev.2.1 prev.2.2.1 prev.2.2.2, sout1_C_0 c t h0 h1 (iblk1 V c 2 t) prev.2.1 prev.2.2.1 prev.2.2.2, prev.2.2.1, prev.2.2.2)

/-- What the output's staging buffer and the three scratch buffers hold after the body at position `n`. -/
def outsAt1 (c : Dev nD) : (n : ℕ) → n < cfg1.N → Vec F S2048x1 .f32 × Vec F S2048x1 .f32 × Vec F S2048x1 .f32 × Vec F S2048x512 .bf16
  | 0, hn => tupA V c ⟨0, hn⟩ (Nat.zero_mod _) (fun h => by (try dsimp only at h); omega)
  | n + 1, hn =>
    if h0 : (n + 1) % 4 = 0 then
      if h1 : (n + 1) % 4 = 3 then False.elim (by omega)
      else tupA V c ⟨n + 1, hn⟩ h0 h1
    else
      if h1 : (n + 1) % 4 = 3 then tupC V c ⟨n + 1, hn⟩ h0 h1 (outsAt1 c n (Nat.lt_of_succ_lt hn))
      else tupB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = tupA V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 4 = 0) (h1 : ¬t.val % 4 = 3) :
    outsAt1 V c t.val t.isLt = tupB V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 4 = 0) (h1 : t.val % 4 = 3) :
    outsAt1 V c t.val t.isLt = tupC V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the class invariant (every scratch at anything); afterwards the three
    scratch buffers at what the point before left, the other region's staging buffers at anything, the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input buffers hold their blocks; the point's case is decided by its position in
    the row block; the invariant hands the body the scratch at what the point before left (at anything at the very
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold tupA sout1_A_0 sout1_A_1 sout1_A_2; (try dsimp only)
    by_cases hz : t.val = 0
    · rw [PhiS_castSucc V c t, PhiS_zero V c _ _ hz, PhiA1_eq]
      iintro ⟨⟨⟨HE0, HE1, HE2, HE3, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HE0 HE1 HE2 HE3 HS0 HS1 HS2 Hg]
      · isplitl [HE0 HE1 HE2 HE3 HS0 HS1 HS2]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scover1_A_0 c t h0 h1 _ _ _)
          isplitl [HS1]
          · unfold owns; iexists _; isplitr
            swap; · iexact HS1
            ipureintro; exact View.read_writes_of_cover _ _ _ _ _ (scover1_A_1 c t h0 h1 _ _ _)
          unfold owns; iexists _; isplitr
          swap; · iexact HS2
          ipureintro; exact View.read_writes_of_cover _ _ _ _ _ (scover1_A_2 c t h0 h1 _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HE0, HE1, HE2, HE3, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HE0 HE1 HE2 HE3 HS0 HS1 HS2 Hg]
      · isplitl [HE0 HE1 HE2 HE3 HS0 HS1 HS2]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scover1_A_0 c t h0 h1 _ _ _)
          isplitl [HS1]
          · unfold owns; iexists _; isplitr
            swap; · iexact HS1
            ipureintro; exact View.read_writes_of_cover _ _ _ _ _ (scover1_A_1 c t h0 h1 _ _ _)
          unfold owns; iexists _; isplitr
          swap; · iexact HS2
          ipureintro; exact View.read_writes_of_cover _ _ _ _ _ (scover1_A_2 c t h0 h1 _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold tupC out1_C_3 sout1_C_0; (try dsimp only)
      rw [PhiS_castSucc V c t, PhiS_pos V c _ _ hz]
      iintro ⟨⟨⟨HE0, HE1, HE2, HE3, HS0, HS1, HS2⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 2 t) _ _ _).2.2 _ _ Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, HS1, HS2⟩
      isplitl [HE0 HE1 HE2 HE3 HS0 HS1 HS2 Hg]
      · isplitl [HE0 HE1 HE2 HE3 HS0 HS1 HS2]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scover1_C_0 c t h0 h1 _ _ _ _)
          isplitl [HS1]; · iexact HS1
          iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c t h0 h1 _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold tupB sout1_B_0; (try dsimp only)
      rw [PhiS_castSucc V c t, PhiS_pos V c _ _ hz]
      iintro ⟨⟨⟨HE0, HE1, HE2, HE3, HS0, HS1, HS2⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 2 t) _ _).2 _ _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, HS1, HS2⟩
      isplitl [HE0 HE1 HE2 HE3 HS0 HS1 HS2 Hg]
      · isplitl [HE0 HE1 HE2 HE3 HS0 HS1 HS2]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scover1_B_0 c t h0 h1 _ _ _)
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  iintro ⟨⟨HE0, HE1, HE2, HE3, HS0, HS1, HS2⟩, Hg⟩
  isplitl [HE0 HE1 HE2 HE3 HS0 HS1 HS2]
  · isplitl [HE0]; · iexact HE0
    isplitl [HE1]; · iexact HE1
    isplitl [HE2]; · iexact HE2
    isplitl [HE3]; · iexact HE3
    isplitl [HS0]; · iexists _; iexact HS0
    isplitl [HS1]; · iexists _; iexact HS1
    iexists _; iexact HS2
  iexact Hg

end Region1

end Cert.Kernel.Hand

end
-- ==== Proof.BitsRegion0.lean ====
import proofs.«172893_j85521388798178_2_alg».proof.Proof.Gen.Kernel.Launch
import proofs.«172893_j85521388798178_2_alg».proof.Proof.Gen.Kernel.Skeleton
import proofs.«172893_j85521388798178_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The first region: row normalisation, one 4096 × 512 block per grid point

The region's body reads the whole input block `x`, forms the row-normalised block
`x · rsqrt (max (Σ_j x² , ε²))` rounded to the narrow float type, and stores it over the whole
output block. The output block's earlier contents are read once before the store and never used,
so what the body leaves in the output block is a function of the input block alone.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The block of window `w` at grid point `t`, read from the window's array at the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds the window's block at every point, for any proof data
    whose array is `V`'s and whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block as one rectangle: offsets zero, extents the block's. -/
abbrev r0_0 : Rect S4096x512 := Rect.unit (s := S4096x512) ![0, 0] S4096x512.size inb_S4096x512_S4096x512_0_0

/-- The zero offsets, as the constant function. -/
theorem zeros0 : (![0, 0] : Fin 2 → ℕ) = fun _ => 0 := by
  funext a; fin_cases a <;> rfl

/-- What the body leaves in the output block, from the input block `x0`: the one whole-block store's
    payload, the normalised rows of `x0`. -/
def out0_1 (x0 : Vec F S4096x512 .f32) : Vec F S4096x512 .bf16 :=
  View.canon [⟨r0_0, k0_pay1 (View.ld x0 r0_0)⟩]

/-- The whole-block rectangle holds every index, so the one store covers the block. -/
theorem cover0_1 (p0 : Vec F S4096x512 .bf16) (y : S4096x512.Idx) :
    ∃ pc ∈ ([⟨r0_0, p0⟩] : List (View.Piece (Elt F) S4096x512 .bf16)), y ∈ pc.1.set :=
  ⟨_, List.mem_singleton_self _, View.mem_set_unit_zero (S := S4096x512) zeros0 inb_S4096x512_S4096x512_0_0 y⟩

/-- The one whole-block store leaves its payload and the whole-block load reads the block: after the
    body the output block is the payload of the input block. -/
theorem out0_1_eq (x0 : Vec F S4096x512 .f32) : out0_1 x0 = k0_pay1 x0 := by
  unfold out0_1
  rw [View.canon_unit_zero zeros0, View.ld_unit_zero zeros0]

set_option maxHeartbeats 1000000 in
/-- The body on whole buffers — the input's at contents `x0`, the output's at anything — runs to the
    continuation with the input's unchanged and the output's at `out0_1 x0`. -/
theorem sound_kernel0 (c : Dev nD) (E : Set ℕ) (i : grid0.Coords) (arg0 : Memref sig .tc .vmem S4096x512 .f32) (harg0 : arg0.IsWhole) (arg1 : Memref sig .tc .vmem S4096x512 .bf16) (harg1 : arg1.IsWhole)
    (x0 : Vec F S4096x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_negative_kernel i arg0 harg0 arg1 harg1) K := by
  simp only [cc0__normalize_negative_kernel_eq_skeleton]; unfold cc0__normalize_negative_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the region's pipeline on core `c`: the arrays at `V`; after the body at point
    `t` the input's buffer at its block and the output's at `out0_1` of that block; the invariant
    that leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the contents `V`. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current buffer holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BitsRun.lean ====
/-
  The whole program as three segments — the normalising region, the reduction region, the host tail — run in
  order from the launch memory: the buffer contents at each boundary (a fold through @main), each region as a
  segment entered from the contents before it and left at the contents after it, and the run: every weakly fair
  execution terminates with every unscoped buffer at the last boundary's contents.
-/
import proofs.«172893_j85521388798178_2_alg».proof.Proof.BitsFrame1
import proofs.«172893_j85521388798178_2_alg».proof.Proof.BitsRegion0
import proofs.«172893_j85521388798178_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev Wa : Dev nD → Valuation τ sig (Elt F) := fun c b => m (c, b)
abbrev Va : (c : Dev nD) → (b : Ref sig .tc) → Buf (Elt F) ((c : Thread nD τ).loc b) := fun c b => Wa m c b
/-- After the normalising region: its arrays at what the pipeline leaves, every other buffer as entered. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)
/-- After the reduction region. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)
/-- After the host tail. -/
abbrev Wd : Dev nD → Valuation τ sig (Elt F) := fun c => StableHlo.after hostOps2 (Wc m c)

/-! ## The arguments end as launched -/

theorem Wd_main_arg0 (c : Dev nD) : Wd m c (Proc.devRef .tc main_arg0) = m ((c : Thread nD τ).loc main_arg0) :=
  calc Wd m c (Proc.devRef .tc main_arg0)
    _ = Wc m c (Proc.devRef .tc main_arg0) := StableHlo.after_of_writes_sub hostOps2 _ hostOps2_writes (r := main_arg0) (by decide)
    _ = Wb m c (Proc.devRef .tc main_arg0) := (Wc_arr m c 0).trans (((dat1 (Vb m) c).arrAt_in 0 rfl _).trans (A_eq1 (Vb m) c 0))
    _ = Wa m c (Proc.devRef .tc main_arg0) := Wb_of_ne m c main_arg0 (by decide)
    _ = m ((c : Thread nD τ).loc main_arg0) := rfl
theorem Wd_main_arg1 (c : Dev nD) : Wd m c (Proc.devRef .tc main_arg1) = m ((c : Thread nD τ).loc main_arg1) :=
  calc Wd m c (Proc.devRef .tc main_arg1)
    _ = Wc m c (Proc.devRef .tc main_arg1) := StableHlo.after_of_writes_sub hostOps2 _ hostOps2_writes (r := main_arg1) (by decide)
    _ = Wb m c (Proc.devRef .tc main_arg1) := (Wc_arr m c 1).trans (((dat1 (Vb m) c).arrAt_in 1 rfl _).trans (A_eq1 (Vb m) c 1))
    _ = Wa m c (Proc.devRef .tc main_arg1) := Wb_of_ne m c main_arg1 (by decide)
    _ = m ((c : Thread nD τ).loc main_arg1) := rfl
theorem Wd_main_arg2 (c : Dev nD) : Wd m c (Proc.devRef .tc main_arg2) = m ((c : Thread nD τ).loc main_arg2) :=
  calc Wd m c (Proc.devRef .tc main_arg2)
    _ = Wc m c (Proc.devRef .tc main_arg2) := StableHlo.after_of_writes_sub hostOps2 _ hostOps2_writes (r := main_arg2) (by decide)
    _ = Wb m c (Proc.devRef .tc main_arg2) := Wc_of_ne m c main_arg2 (by decide)
    _ = Wa m c (Proc.devRef .tc main_arg2) := (Wb_arr m c 0).trans (((dat0 (Va m) c).arrAt_in 0 rfl _).trans (A_eq0 (Va m) c 0))
    _ = m ((c : Thread nD τ).loc main_arg2) := rfl

/-! ## The proof data family and the thread state -/

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Va m) c
  | ⟨1, _⟩ => fun c => dat1 (Vb m) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wd m c) ∗ ∃ r, prngReg c r)

/-! ## The regions as segments -/

set_option backward.isDefEq.respectTransparency.types false in
/-- The normalising region: entered from every unscoped buffer at the launch contents, left at `Wb`. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ LH lvH 0 fun _ _ => rfl
  pre c := iprop(StableHlo.held (c : Thread nD τ) (Pipeline.ucRefs τ sig) (Wa m c) ∗ RH c)
  post c := iprop(StableHlo.held (c : Thread nD τ) (Pipeline.ucRefs τ sig) (Wb m c) ∗ RH c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (Va m c) (Vb m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The reduction region: entered from `Wb`, left at `Wc`; its invariant starts as the class invariant and
    gives it back after the last point. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ LH lvH 1 fun _ _ => rfl
  pre c := iprop(StableHlo.held (c : Thread nD τ) (Pipeline.ucRefs τ sig) (Wb m c) ∗ RH c)
  post c := iprop(StableHlo.held (c : Thread nD τ) (Pipeline.ucRefs τ sig) (Wc m c) ∗ RH c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vb m) c
    unfold Pipeline.ΦA at h
    show _ ⊢ (dat1 (Vb m) c).Φ 0
    iintro ⟨Hp, -, Hr⟩
    iapply h
    isplitl [Hr]; · iexact Hr
    iexact Hp
  hout c := by
    rw [Pipeline.ownSems0_none]
    have h := hout1 (Vb m) c
    unfold Pipeline.ΦA at h
    show (dat1 (Vb m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (Vb m c) (Vc m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .region (reg0 m),
    .region (reg1 m),
    .host (hsegH hostOps2 hostOps2_sub hostOps2_fresh (Wc m)) ]
theorem main_runH (c : Dev nD) : main (F := F) c = Pipeline.Seg.run (segsH m) := (main_chain c).trans (by chain_rfl)

set_option backward.isDefEq.respectTransparency.types false in
/-- THE RUN: from any memory with zero counters every weakly fair execution of @main terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ RH c)) (Tₙ := TnH m)
    (hch := ⟨fun _ => .rfl, fun _ => .rfl, fun _ => .rfl, fun c => by
      show iprop(StableHlo.held (c : Thread nD τ) (Pipeline.ucRefs τ sig) (StableHlo.after hostOps2 (Wc m c)) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

/-- The frame: the three argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Wd_main_arg0 m c),
     (h c _ (mem_uc main_arg1 (by decide))).trans (Wd_main_arg1 m c),
     (h c _ (mem_uc main_arg2 (by decide))).trans (Wd_main_arg2 m c)⟩) (run_all m ρ)

end Cert.Kernel.Hand

end
-- ==== Proof.IdealRegion1Defs.lean ====
/-
  The second kernel region (the contrastive reduction over a 4 x 4 grid of points): what its three control
  cases are, decided over the grid; where its output window is idle; the scratch buffers as memrefs; and each
  input window's staging buffer holding its block at every point.
  Point t = 4 i + j: row block i of x and positive (2048 rows), column tile j of the normalised negatives (4096 rows).
  j = 0 resets the denominator and fills the normalised-x and similarity scratch; j = 3 writes the output block.
-/
import proofs.«172893_j85521388798178_2_alg».proof.Proof.Gen.KernelIdeal.Launch
import proofs.«172893_j85521388798178_2_alg».proof.Proof.Gen.KernelIdeal.Skeleton
import proofs.«172893_j85521388798178_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first branch (reset and fill) is taken where the column-tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The last branch (write the output block) is taken where the column-tile coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S2048x1 .f32 := (Memref.whole cc1_stg3_0 : Memref sig .tc .vmem S2048x1 .f32).view
abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The three scratch buffers: the denominator accumulator, the similarity column, the normalised x block. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x512 .bf16 := Memref.whole cc1_scratch2
abbrev VS1_0 : View sig .tc .vmem S2048x1 .f32 := scM1_0.view
abbrev VS1_1 : View sig .tc .vmem S2048x1 .f32 := scM1_1.view
abbrev VS1_2 : View sig .tc .vmem S2048x512 .bf16 := scM1_2.view

/-- The region's class invariant with the scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.IdealRun1A.lean ====
/-
  The second region's body run in control case A: every load, store and branch of the printed body stepped
  in order from whole staging and scratch buffers, the buffers' final contents recorded as the list of pieces stored.
-/
import proofs.«172893_j85521388798178_2_alg».proof.Proof.IdealRegion1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first column tile (reset and fill taken, output not written): the pieces each scratch buffer
    ends with, found by running the body; the input blocks and the idle output buffer are handed back as found. -/
noncomputable def kernelRun1_A (c : Dev nD) (i : grid1.Coords) (arg2 : Memref sig .tc .vmem S2048x512 .f32) (harg2 : arg2.IsWhole) (arg3 : Memref sig .tc .vmem S2048x512 .f32) (harg3 : arg3.IsWhole) (arg4 : Memref sig .tc .vmem S4096x512 .bf16) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .bf16) (harg8 : arg8.IsWhole) (hc0 : cond1_0 i) (hc1 : ¬cond1_1 i)
    (x0 x1 : Vec F S2048x512 .f32) (x2 : Vec F S4096x512 .bf16) :
    Σ' (LS0 : List (View.Piece (Elt F) S2048x1 .f32)) (LS1 : List (View.Piece (Elt F) S2048x1 .f32)), { LS2 : List (View.Piece (Elt F) S2048x512 .bf16) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__contrastive_kernel i arg2 harg2 arg3 harg3 arg4 harg4 arg5 harg5 arg6 harg6 arg7 harg7 arg8 harg8) K } := by
  refine ⟨?_, ?_, ?_, fun xi3 E K => ?run⟩
  case run =>
    simp only [cc1__contrastive_kernel_eq_skeleton]; unfold cc1__contrastive_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.IdealRun1B.lean ====
/-
  The second region's body run in control case B: every load, store and branch of the printed body stepped
  in order from whole staging and scratch buffers, the buffers' final contents recorded as the list of pieces stored.
-/
import proofs.«172893_j85521388798178_2_alg».proof.Proof.IdealRun1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a middle column tile (neither branch taken): the pieces the denominator scratch ends with,
    found by running the body; the similarity and normalised-x scratch, the input blocks and the idle output
    buffer are handed back as found. -/
noncomputable def kernelRun1_B (c : Dev nD) (i : grid1.Coords) (arg2 : Memref sig .tc .vmem S2048x512 .f32) (harg2 : arg2.IsWhole) (arg3 : Memref sig .tc .vmem S2048x512 .f32) (harg3 : arg3.IsWhole) (arg4 : Memref sig .tc .vmem S4096x512 .bf16) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .bf16) (harg8 : arg8.IsWhole) (hc0 : ¬cond1_0 i) (hc1 : ¬cond1_1 i)
    (x2 : Vec F S4096x512 .bf16) (xs0 : Vec F S2048x1 .f32) (xs2 : Vec F S2048x512 .bf16) :
    { LS0 : List (View.Piece (Elt F) S2048x1 .f32) //
      ∀ (x0 x1 : Vec F S2048x512 .f32) (xi3 xs1 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ owns (c : Thread nD τ) arg7 fullShare xs1 ∗ owns (c : Thread nD τ) arg8 fullShare xs2) -∗ K ⟨⟩))
          ⊢ wp frame (wpE (defs₀ (F := F)) Variants.none c none) E (cc1__contrastive_kernel i arg2 harg2 arg3 harg3 arg4 harg4 arg5 harg5 arg6 harg6 arg7 harg7 arg8 harg8) K } := by
  refine ⟨?_, fun x0 x1 xi3 xs1 E K => ?run⟩
  case run =>
    simp only [cc1__contrastive_kernel_eq_skeleton]; unfold cc1__contrastive_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]
    · iexists _; isplitr; · ipureintro; exact harg7.read_unread _
      iexact HS1
    iexists _; isplitr; · ipureintro; exact harg8.read_unread _
    iexact HS2

end Cert.KernelIdeal.Hand

end
-- ==== Proof.IdealRun1C.lean ====
/-
  The second region's body run in control case C: every load, store and branch of the printed body stepped
  in order from whole staging and scratch buffers, the buffers' final contents recorded as the list of pieces stored.
-/
import proofs.«172893_j85521388798178_2_alg».proof.Proof.IdealRun1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the last column tile (output written): the pieces the output buffer and the denominator scratch
    end with, found by running the body; the other buffers are handed back as found. -/
noncomputable def kernelRun1_C (c : Dev nD) (i : grid1.Coords) (arg2 : Memref sig .tc .vmem S2048x512 .f32) (harg2 : arg2.IsWhole) (arg3 : Memref sig .tc .vmem S2048x512 .f32) (harg3 : arg3.IsWhole) (arg4 : Memref sig .tc .vmem S4096x512 .bf16) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .bf16) (harg8 : arg8.IsWhole) (hc0 : ¬cond1_0 i) (hc1 : cond1_1 i)
    (x2 : Vec F S4096x512 .bf16) (xs0 xs1 : Vec F S2048x1 .f32) (xs2 : Vec F S2048x512 .bf16) :
    Σ' (L3 : List (View.Piece (Elt F) S2048x1 .f32)), { LS0 : List (View.Piece (Elt F) S2048x1 .f32) //
      ∀ (x0 x1 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ owns (c : Thread nD τ) arg7 fullShare xs1 ∗ owns (c : Thread nD τ) arg8 fullShare xs2) -∗ K ⟨⟩))
          ⊢ wp frame (wpE (defs₀ (F := F)) Variants.none c none) E (cc1__contrastive_kernel i arg2 harg2 arg3 harg3 arg4 harg4 arg5 harg5 arg6 harg6 arg7 harg7 arg8 harg8) K } := by
  refine ⟨?_, ?_, fun x0 x1 E K => ?run⟩
  case run =>
    simp only [cc1__contrastive_kernel_eq_skeleton]; unfold cc1__contrastive_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]
    · iexists _; isplitr; · ipureintro; exact harg7.read_unread _
      iexact HS1
    iexists _; isplitr; · ipureintro; exact harg8.read_unread _
    iexact HS2

end Cert.KernelIdeal.Hand

end
-- ==== Proof.IdealFrame1.lean ====
/-
  The second region point by point: what the output buffer and the three scratch buffers hold after each grid
  point (by recursion on the point, from the case the point is in), the region's invariant carrying the scratch
  contents from one point to the next, the proof data, and the body obligation at every point.
-/
import proofs.«172893_j85521388798178_2_alg».proof.Proof.IdealRun1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-! ## What each case leaves -/

/-- Placeholder contents of the output buffer at a point that stores nothing into it (never consulted). -/
def idle3 : Vec F S2048x1 .f32 := VO1_3.read (Elt F) VO1_3.junk

section A
variable (c : Dev nD) (t : Fin cfg1.N) (h0 : t.val % 4 = 0) (h1 : ¬t.val % 4 = 3) (x0 x1 : Vec F S2048x512 .f32) (x2 : Vec F S4096x512 .bf16)
def sout1_A_0 : Vec F S2048x1 .f32 := VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).1)
def sout1_A_1 : Vec F S2048x1 .f32 := VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.1)
def sout1_A_2 : Vec F S2048x512 .bf16 := VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.2.1)
theorem scover1_A_0 (y : S2048x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).1 S2048x1.size (by sl_kernel_rfl) y
theorem scover1_A_1 (y : S2048x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.1 S2048x1.size (by sl_kernel_rfl) y
theorem scover1_A_2 (y : S2048x512.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) x0 x1 x2).2.2.1 S2048x512.size (by sl_kernel_rfl) y
end A

section B
variable (c : Dev nD) (t : Fin cfg1.N) (h0 : ¬t.val % 4 = 0) (h1 : ¬t.val % 4 = 3) (x2 : Vec F S4096x512 .bf16) (xs0 : Vec F S2048x1 .f32) (xs2 : Vec F S2048x512 .bf16)
def sout1_B_0 : Vec F S2048x1 .f32 := VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) x2 xs0 xs2).1)
theorem scover1_B_0 (y : S2048x1.Idx) : ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) x2 xs0 xs2).1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) x2 xs0 xs2).1 S2048x1.size (by sl_kernel_rfl) y
end B

section C
variable (c : Dev nD) (t : Fin cfg1.N) (h0 : ¬t.val % 4 = 0) (h1 : t.val % 4 = 3) (x2 : Vec F S4096x512 .bf16) (xs0 xs1 : Vec F S2048x1 .f32) (xs2 : Vec F S2048x512 .bf16)
def out1_C_3 : Vec F S2048x1 .f32 := VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).1)
def sout1_C_0 : Vec F S2048x1 .f32 := VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).2.1)
theorem cover1_C_3 (y : S2048x1.Idx) : ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).1 S2048x1.size (by sl_kernel_rfl) y
theorem scover1_C_0 (y : S2048x1.Idx) : ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) x2 xs0 xs1 xs2).2.1 S2048x1.size (by sl_kernel_rfl) y
end C

/-! ## Point by point -/

/-- After a point of the first column tile: the scratch as that case fills it from the point's input blocks. -/
def tupA (c : Dev nD) (t : Fin cfg1.N) (h0 : t.val % 4 = 0) (h1 : ¬t.val % 4 = 3) : Vec F S2048x1 .f32 × Vec F S2048x1 .f32 × Vec F S2048x1 .f32 × Vec F S2048x512 .bf16 :=
  (idle3, sout1_A_0 c t h0 h1 (iblk1 V c 0 t) (iblk1 V c 1 t) (iblk1 V c 2 t), sout1_A_1 c t h0 h1 (iblk1 V c 0 t) (iblk1 V c 1 t) (iblk1 V c 2 t), sout1_A_2 c t h0 h1 (iblk1 V c 0 t) (iblk1 V c 1 t) (iblk1 V c 2 t))
/-- After a middle point: the denominator accumulated over what the point before left, the rest kept. -/
def tupB (c : Dev nD) (t : Fin cfg1.N) (h0 : ¬t.val % 4 = 0) (h1 : ¬t.val % 4 = 3) (prev : Vec F S2048x1 .f32 × Vec F S2048x1 .f32 × Vec F S2048x1 .f32 × Vec F S2048x512 .bf16) : Vec F S2048x1 .f32 × Vec F S2048x1 .f32 × Vec F S2048x1 .f32 × Vec F S2048x512 .bf16 :=
  (idle3, sout1_B_0 c t h0 h1 (iblk1 V c 2 t) prev.2.1 prev.2.2.2, prev.2.2.1, prev.2.2.2)
/-- After a point of the last column tile: also the output block. -/
def tupC (c : Dev nD) (t : Fin cfg1.N) (h0 : ¬t.val % 4 = 0) (h1 : t.val % 4 = 3) (prev : Vec F S2048x1 .f32 × Vec F S2048x1 .f32 × Vec F S2048x1 .f32 × Vec F S2048x512 .bf16) : Vec F S2048x1 .f32 × Vec F S2048x1 .f32 × Vec F S2048x1 .f32 × Vec F S2048x512 .bf16 :=
  (out1_C_3 c t h0 h1 (iblk1 V c 2 t) prev.2.1 prev.2.2.1 prev.2.2.2, sout1_C_0 c t h0 h1 (iblk1 V c 2 t) prev.2.1 prev.2.2.1 prev.2.2.2, prev.2.2.1, prev.2.2.2)

/-- What the output's staging buffer and the three scratch buffers hold after the body at position `n`. -/
def outsAt1 (c : Dev nD) : (n : ℕ) → n < cfg1.N → Vec F S2048x1 .f32 × Vec F S2048x1 .f32 × Vec F S2048x1 .f32 × Vec F S2048x512 .bf16
  | 0, hn => tupA V c ⟨0, hn⟩ (Nat.zero_mod _) (fun h => by (try dsimp only at h); omega)
  | n + 1, hn =>
    if h0 : (n + 1) % 4 = 0 then
      if h1 : (n + 1) % 4 = 3 then False.elim (by omega)
      else tupA V c ⟨n + 1, hn⟩ h0 h1
    else
      if h1 : (n + 1) % 4 = 3 then tupC V c ⟨n + 1, hn⟩ h0 h1 (outsAt1 c n (Nat.lt_of_succ_lt hn))
      else tupB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = tupA V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 4 = 0) (h1 : ¬t.val % 4 = 3) :
    outsAt1 V c t.val t.isLt = tupB V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 4 = 0) (h1 : t.val % 4 = 3) :
    outsAt1 V c t.val t.isLt = tupC V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the class invariant (every scratch at anything); afterwards the three
    scratch buffers at what the point before left, the other region's staging buffers at anything, the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input buffers hold their blocks; the point's case is decided by its position in
    the row block; the invariant hands the body the scratch at what the point before left (at anything at the very
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold tupA sout1_A_0 sout1_A_1 sout1_A_2; (try dsimp only)
    by_cases hz : t.val = 0
    · rw [PhiS_castSucc V c t, PhiS_zero V c _ _ hz, PhiA1_eq]
      iintro ⟨⟨⟨HE0, HE1, HE2, HE3, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HE0 HE1 HE2 HE3 HS0 HS1 HS2 Hg]
      · isplitl [HE0 HE1 HE2 HE3 HS0 HS1 HS2]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scover1_A_0 c t h0 h1 _ _ _)
          isplitl [HS1]
          · unfold owns; iexists _; isplitr
            swap; · iexact HS1
            ipureintro; exact View.read_writes_of_cover _ _ _ _ _ (scover1_A_1 c t h0 h1 _ _ _)
          unfold owns; iexists _; isplitr
          swap; · iexact HS2
          ipureintro; exact View.read_writes_of_cover _ _ _ _ _ (scover1_A_2 c t h0 h1 _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HE0, HE1, HE2, HE3, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HE0 HE1 HE2 HE3 HS0 HS1 HS2 Hg]
      · isplitl [HE0 HE1 HE2 HE3 HS0 HS1 HS2]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scover1_A_0 c t h0 h1 _ _ _)
          isplitl [HS1]
          · unfold owns; iexists _; isplitr
            swap; · iexact HS1
            ipureintro; exact View.read_writes_of_cover _ _ _ _ _ (scover1_A_1 c t h0 h1 _ _ _)
          unfold owns; iexists _; isplitr
          swap; · iexact HS2
          ipureintro; exact View.read_writes_of_cover _ _ _ _ _ (scover1_A_2 c t h0 h1 _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold tupC out1_C_3 sout1_C_0; (try dsimp only)
      rw [PhiS_castSucc V c t, PhiS_pos V c _ _ hz]
      iintro ⟨⟨⟨HE0, HE1, HE2, HE3, HS0, HS1, HS2⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 2 t) _ _ _).2.2 _ _ Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, HS1, HS2⟩
      isplitl [HE0 HE1 HE2 HE3 HS0 HS1 HS2 Hg]
      · isplitl [HE0 HE1 HE2 HE3 HS0 HS1 HS2]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scover1_C_0 c t h0 h1 _ _ _ _)
          isplitl [HS1]; · iexact HS1
          iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c t h0 h1 _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold tupB sout1_B_0; (try dsimp only)
      rw [PhiS_castSucc V c t, PhiS_pos V c _ _ hz]
      iintro ⟨⟨⟨HE0, HE1, HE2, HE3, HS0, HS1, HS2⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 2 t) _ _).2 _ _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, HS1, HS2⟩
      isplitl [HE0 HE1 HE2 HE3 HS0 HS1 HS2 Hg]
      · isplitl [HE0 HE1 HE2 HE3 HS0 HS1 HS2]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scover1_B_0 c t h0 h1 _ _ _)
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  iintro ⟨⟨HE0, HE1, HE2, HE3, HS0, HS1, HS2⟩, Hg⟩
  isplitl [HE0 HE1 HE2 HE3 HS0 HS1 HS2]
  · isplitl [HE0]; · iexact HE0
    isplitl [HE1]; · iexact HE1
    isplitl [HE2]; · iexact HE2
    isplitl [HE3]; · iexact HE3
    isplitl [HS0]; · iexists _; iexact HS0
    isplitl [HS1]; · iexists _; iexact HS1
    iexists _; iexact HS2
  iexact Hg

end Region1

end Cert.KernelIdeal.Hand

end
-- ==== Proof.IdealRegion0.lean ====
import proofs.«172893_j85521388798178_2_alg».proof.Proof.Gen.KernelIdeal.Launch
import proofs.«172893_j85521388798178_2_alg».proof.Proof.Gen.KernelIdeal.Skeleton
import proofs.«172893_j85521388798178_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The first region: row normalisation, one 4096 × 512 block per grid point

The region's body reads the whole input block `x`, forms the row-normalised block
`x · rsqrt (max (Σ_j x² , ε²))` rounded to the narrow float type, and stores it over the whole
output block. The output block's earlier contents are read once before the store and never used,
so what the body leaves in the output block is a function of the input block alone.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-- The block of window `w` at grid point `t`, read from the window's array at the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds the window's block at every point, for any proof data
    whose array is `V`'s and whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block as one rectangle: offsets zero, extents the block's. -/
abbrev r0_0 : Rect S4096x512 := Rect.unit (s := S4096x512) ![0, 0] S4096x512.size inb_S4096x512_S4096x512_0_0

/-- The zero offsets, as the constant function. -/
theorem zeros0 : (![0, 0] : Fin 2 → ℕ) = fun _ => 0 := by
  funext a; fin_cases a <;> rfl

/-- What the body leaves in the output block, from the input block `x0`: the one whole-block store's
    payload, the normalised rows of `x0`. -/
def out0_1 (x0 : Vec F S4096x512 .f32) : Vec F S4096x512 .bf16 :=
  View.canon [⟨r0_0, k0_pay1 (View.ld x0 r0_0)⟩]

/-- The whole-block rectangle holds every index, so the one store covers the block. -/
theorem cover0_1 (p0 : Vec F S4096x512 .bf16) (y : S4096x512.Idx) :
    ∃ pc ∈ ([⟨r0_0, p0⟩] : List (View.Piece (Elt F) S4096x512 .bf16)), y ∈ pc.1.set :=
  ⟨_, List.mem_singleton_self _, View.mem_set_unit_zero (S := S4096x512) zeros0 inb_S4096x512_S4096x512_0_0 y⟩

/-- The one whole-block store leaves its payload and the whole-block load reads the block: after the
    body the output block is the payload of the input block. -/
theorem out0_1_eq (x0 : Vec F S4096x512 .f32) : out0_1 x0 = k0_pay1 x0 := by
  unfold out0_1
  rw [View.canon_unit_zero zeros0, View.ld_unit_zero zeros0]

set_option maxHeartbeats 1000000 in
/-- The body on whole buffers — the input's at contents `x0`, the output's at anything — runs to the
    continuation with the input's unchanged and the output's at `out0_1 x0`. -/
theorem sound_kernel0 (c : Dev nD) (E : Set ℕ) (i : grid0.Coords) (arg0 : Memref sig .tc .vmem S4096x512 .f32) (harg0 : arg0.IsWhole) (arg1 : Memref sig .tc .vmem S4096x512 .bf16) (harg1 : arg1.IsWhole)
    (x0 : Vec F S4096x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_negative_kernel i arg0 harg0 arg1 harg1) K := by
  simp only [cc0__normalize_negative_kernel_eq_skeleton]; unfold cc0__normalize_negative_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the region's pipeline on core `c`: the arrays at `V`; after the body at point
    `t` the input's buffer at its block and the output's at `out0_1` of that block; the invariant
    that leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the contents `V`. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current buffer holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.IdealRun.lean ====
/-
  The whole program as three segments — the normalising region, the reduction region, the host tail — run in
  order from the launch memory: the buffer contents at each boundary (a fold through @main), each region as a
  segment entered from the contents before it and left at the contents after it, and the run: every weakly fair
  execution terminates with every unscoped buffer at the last boundary's contents.
-/
import proofs.«172893_j85521388798178_2_alg».proof.Proof.IdealFrame1
import proofs.«172893_j85521388798178_2_alg».proof.Proof.IdealRegion0
import proofs.«172893_j85521388798178_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev Wa : Dev nD → Valuation τ sig (Elt F) := fun c b => m (c, b)
abbrev Va : (c : Dev nD) → (b : Ref sig .tc) → Buf (Elt F) ((c : Thread nD τ).loc b) := fun c b => Wa m c b
/-- After the normalising region: its arrays at what the pipeline leaves, every other buffer as entered. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)
/-- After the reduction region. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)
/-- After the host tail. -/
abbrev Wd : Dev nD → Valuation τ sig (Elt F) := fun c => StableHlo.after hostOps2 (Wc m c)

/-! ## The arguments end as launched -/

theorem Wd_main_arg0 (c : Dev nD) : Wd m c (Proc.devRef .tc main_arg0) = m ((c : Thread nD τ).loc main_arg0) :=
  calc Wd m c (Proc.devRef .tc main_arg0)
    _ = Wc m c (Proc.devRef .tc main_arg0) := StableHlo.after_of_writes_sub hostOps2 _ hostOps2_writes (r := main_arg0) (by decide)
    _ = Wb m c (Proc.devRef .tc main_arg0) := (Wc_arr m c 0).trans (((dat1 (Vb m) c).arrAt_in 0 rfl _).trans (A_eq1 (Vb m) c 0))
    _ = Wa m c (Proc.devRef .tc main_arg0) := Wb_of_ne m c main_arg0 (by decide)
    _ = m ((c : Thread nD τ).loc main_arg0) := rfl
theorem Wd_main_arg1 (c : Dev nD) : Wd m c (Proc.devRef .tc main_arg1) = m ((c : Thread nD τ).loc main_arg1) :=
  calc Wd m c (Proc.devRef .tc main_arg1)
    _ = Wc m c (Proc.devRef .tc main_arg1) := StableHlo.after_of_writes_sub hostOps2 _ hostOps2_writes (r := main_arg1) (by decide)
    _ = Wb m c (Proc.devRef .tc main_arg1) := (Wc_arr m c 1).trans (((dat1 (Vb m) c).arrAt_in 1 rfl _).trans (A_eq1 (Vb m) c 1))
    _ = Wa m c (Proc.devRef .tc main_arg1) := Wb_of_ne m c main_arg1 (by decide)
    _ = m ((c : Thread nD τ).loc main_arg1) := rfl
theorem Wd_main_arg2 (c : Dev nD) : Wd m c (Proc.devRef .tc main_arg2) = m ((c : Thread nD τ).loc main_arg2) :=
  calc Wd m c (Proc.devRef .tc main_arg2)
    _ = Wc m c (Proc.devRef .tc main_arg2) := StableHlo.after_of_writes_sub hostOps2 _ hostOps2_writes (r := main_arg2) (by decide)
    _ = Wb m c (Proc.devRef .tc main_arg2) := Wc_of_ne m c main_arg2 (by decide)
    _ = Wa m c (Proc.devRef .tc main_arg2) := (Wb_arr m c 0).trans (((dat0 (Va m) c).arrAt_in 0 rfl _).trans (A_eq0 (Va m) c 0))
    _ = m ((c : Thread nD τ).loc main_arg2) := rfl

/-! ## The proof data family and the thread state -/

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Va m) c
  | ⟨1, _⟩ => fun c => dat1 (Vb m) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wd m c) ∗ ∃ r, prngReg c r)

/-! ## The regions as segments -/

set_option backward.isDefEq.respectTransparency.types false in
/-- The normalising region: entered from every unscoped buffer at the launch contents, left at `Wb`. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ LH lvH 0 fun _ _ => rfl
  pre c := iprop(StableHlo.held (c : Thread nD τ) (Pipeline.ucRefs τ sig) (Wa m c) ∗ RH c)
  post c := iprop(StableHlo.held (c : Thread nD τ) (Pipeline.ucRefs τ sig) (Wb m c) ∗ RH c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (Va m c) (Vb m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The reduction region: entered from `Wb`, left at `Wc`; its invariant starts as the class invariant and
    gives it back after the last point. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ LH lvH 1 fun _ _ => rfl
  pre c := iprop(StableHlo.held (c : Thread nD τ) (Pipeline.ucRefs τ sig) (Wb m c) ∗ RH c)
  post c := iprop(StableHlo.held (c : Thread nD τ) (Pipeline.ucRefs τ sig) (Wc m c) ∗ RH c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vb m) c
    unfold Pipeline.ΦA at h
    show _ ⊢ (dat1 (Vb m) c).Φ 0
    iintro ⟨Hp, -, Hr⟩
    iapply h
    isplitl [Hr]; · iexact Hr
    iexact Hp
  hout c := by
    rw [Pipeline.ownSems0_none]
    have h := hout1 (Vb m) c
    unfold Pipeline.ΦA at h
    show (dat1 (Vb m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (Vb m c) (Vc m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .region (reg0 m),
    .region (reg1 m),
    .host (hsegH hostOps2 hostOps2_sub hostOps2_fresh (Wc m)) ]
theorem main_runH (c : Dev nD) : main (F := F) c = Pipeline.Seg.run (segsH m) := (main_chain c).trans (by chain_rfl)

set_option backward.isDefEq.respectTransparency.types false in
/-- THE RUN: from any memory with zero counters every weakly fair execution of @main terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ RH c)) (Tₙ := TnH m)
    (hch := ⟨fun _ => .rfl, fun _ => .rfl, fun _ => .rfl, fun c => by
      show iprop(StableHlo.held (c : Thread nD τ) (Pipeline.ucRefs τ sig) (StableHlo.after hostOps2 (Wc m c)) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

/-- The frame: the three argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Wd_main_arg0 m c),
     (h c _ (mem_uc main_arg1 (by decide))).trans (Wd_main_arg1 m c),
     (h c _ (mem_uc main_arg2 (by decide))).trans (Wd_main_arg2 m c)⟩) (run_all m ρ)

end Cert.KernelIdeal.Hand

end
-- ==== Proof.IdealPieces.lean ====
/-
  What each control case of the second region leaves in the output buffer and the scratch buffers, as the
  body's arithmetic applied to the buffers' contents before the point: the pieces stored, read back.
    first tile:   normalised x := pay5 x;  similarity := pay6 x p;  denominator := pay1 (pay7 (pay5 x) negn-slices) 0
    middle tile:  denominator := pay1 (pay7 xn negn-slices) (denominator before)
    last tile:    the same, and output := pay2 similarity denominator.
-/
import proofs.«172893_j85521388798178_2_alg».proof.Proof.IdealFrame1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → ℕ) = fun _ => 0 := by funext a; fin_cases a <;> rfl

/-- The four 1024-row slices of a 4096-row tile of the normalised negatives, and the denominator's addend over them. -/
def tileSum (xn : Vec F S2048x512 .bf16) (x2 : Vec F S4096x512 .bf16) : FVec F S2048x1 .f32 :=
  k1_pay7 xn (View.ld x2 (Rect.unit (s := S4096x512) ![0, 0] S1024x512.size inb_S4096x512_S1024x512_0_0)) (View.ld x2 (Rect.unit (s := S4096x512) ![1024, 0] S1024x512.size inb_S4096x512_S1024x512_1024_0)) (View.ld x2 (Rect.unit (s := S4096x512) ![2048, 0] S1024x512.size inb_S4096x512_S1024x512_2048_0)) (View.ld x2 (Rect.unit (s := S4096x512) ![3072, 0] S1024x512.size inb_S4096x512_S1024x512_3072_0))

section
variable (c : Dev nD) (t : Fin cfg1.N)

theorem sout1_B_0_eq (h0 : ¬t.val % 4 = 0) (h1 : ¬t.val % 4 = 3) (x2 : Vec F S4096x512 .bf16) (xs0 : Vec F S2048x1 .f32) (xs2 : Vec F S2048x512 .bf16) :
    sout1_B_0 c t h0 h1 x2 xs0 xs2 = k1_pay1 (tileSum xs2 x2) xs0 := by
  have e0 : ∀ xs : Vec F S2048x1 .f32, View.read (Elt F) (View.whole cc1_scratch0) ((Memref.isWhole_whole cc1_scratch0).unread xs) = xs := fun xs => (Memref.isWhole_whole cc1_scratch0).read_unread xs
  have e1 : ∀ xs : Vec F S2048x1 .f32, View.read (Elt F) (View.whole cc1_scratch1) ((Memref.isWhole_whole cc1_scratch1).unread xs) = xs := fun xs => (Memref.isWhole_whole cc1_scratch1).read_unread xs
  have e2 : ∀ xs : Vec F S2048x512 .bf16, View.read (Elt F) (View.whole cc1_scratch2) ((Memref.isWhole_whole cc1_scratch2).unread xs) = xs := fun xs => (Memref.isWhole_whole cc1_scratch2).read_unread xs
  unfold sout1_B_0 tileSum
  rw [View.read_writes_eq_canon _ _ _ (scover1_B_0 c t h0 h1 x2 xs0 xs2)]
  unfold kernelRun1_B
  dsimp only
  sl_unfold_words
  simp only [View.readAt_eq_ld, (hs1_0 t).read_unread, (hs1_1 t).read_unread, (hs1_2 t).read_unread, (hs1_3 t).read_unread,
    Memref.IsWhole.read_unread, e0, e1, e2, View.readCov_unit_zero (S := S2048x1) (View.whole cc1_scratch0) hz2, View.readCov_unit_zero (S := S2048x512) (View.whole cc1_scratch2) hz2, View.readCov_unit_zero (S := S2048x1) scM1_0.view hz2, View.readCov_unit_zero (S := S2048x512) scM1_2.view hz2, View.canon_unit_zero (S := S2048x1) hz2, View.canon_unit_zero (S := S2048x512) hz2, View.canon_cons_unit_zero (S := S2048x1) hz2, View.canon_cons_unit_zero (S := S2048x512) hz2,
    View.ld_unit_zero (S := S2048x1) hz2, View.ld_unit_zero (S := S2048x512) hz2]

theorem sout1_C_0_eq (h0 : ¬t.val % 4 = 0) (h1 : t.val % 4 = 3) (x2 : Vec F S4096x512 .bf16) (xs0 xs1 : Vec F S2048x1 .f32) (xs2 : Vec F S2048x512 .bf16) :
    sout1_C_0 c t h0 h1 x2 xs0 xs1 xs2 = k1_pay1 (tileSum xs2 x2) xs0 := by
  have e0 : ∀ xs : Vec F S2048x1 .f32, View.read (Elt F) (View.whole cc1_scratch0) ((Memref.isWhole_whole cc1_scratch0).unread xs) = xs := fun xs => (Memref.isWhole_whole cc1_scratch0).read_unread xs
  have e1 : ∀ xs : Vec F S2048x1 .f32, View.read (Elt F) (View.whole cc1_scratch1) ((Memref.isWhole_whole cc1_scratch1).unread xs) = xs := fun xs => (Memref.isWhole_whole cc1_scratch1).read_unread xs
  have e2 : ∀ xs : Vec F S2048x512 .bf16, View.read (Elt F) (View.whole cc1_scratch2) ((Memref.isWhole_whole cc1_scratch2).unread xs) = xs := fun xs => (Memref.isWhole_whole cc1_scratch2).read_unread xs
  unfold sout1_C_0 tileSum
  rw [View.read_writes_eq_canon _ _ _ (scover1_C_0 c t h0 h1 x2 xs0 xs1 xs2)]
  unfold kernelRun1_C
  dsimp only
  sl_unfold_words
  simp only [View.readAt_eq_ld, (hs1_0 t).read_unread, (hs1_1 t).read_unread, (hs1_2 t).read_unread, (hs1_3 t).read_unread,
    Memref.IsWhole.read_unread, e0, e1, e2, View.readCov_unit_zero (S := S2048x1) (View.whole cc1_scratch0) hz2, View.readCov_unit_zero (S := S2048x512) (View.whole cc1_scratch2) hz2, View.readCov_unit_zero (S := S2048x1) scM1_0.view hz2, View.readCov_unit_zero (S := S2048x512) scM1_2.view hz2, View.canon_unit_zero (S := S2048x1) hz2, View.canon_unit_zero (S := S2048x512) hz2, View.canon_cons_unit_zero (S := S2048x1) hz2, View.canon_cons_unit_zero (S := S2048x512) hz2,
    View.ld_unit_zero (S := S2048x1) hz2, View.ld_unit_zero (S := S2048x512) hz2]

theorem out1_C_3_eq (h0 : ¬t.val % 4 = 0) (h1 : t.val % 4 = 3) (x2 : Vec F S4096x512 .bf16) (xs0 xs1 : Vec F S2048x1 .f32) (xs2 : Vec F S2048x512 .bf16) :
    out1_C_3 c t h0 h1 x2 xs0 xs1 xs2 = k1_pay2 xs1 (k1_pay1 (tileSum xs2 x2) xs0) := by
  have e0 : ∀ xs : Vec F S2048x1 .f32, View.read (Elt F) (View.whole cc1_scratch0) ((Memref.isWhole_whole cc1_scratch0).unread xs) = xs := fun xs => (Memref.isWhole_whole cc1_scratch0).read_unread xs
  have e1 : ∀ xs : Vec F S2048x1 .f32, View.read (Elt F) (View.whole cc1_scratch1) ((Memref.isWhole_whole cc1_scratch1).unread xs) = xs := fun xs => (Memref.isWhole_whole cc1_scratch1).read_unread xs
  have e2 : ∀ xs : Vec F S2048x512 .bf16, View.read (Elt F) (View.whole cc1_scratch2) ((Memref.isWhole_whole cc1_scratch2).unread xs) = xs := fun xs => (Memref.isWhole_whole cc1_scratch2).read_unread xs
  unfold out1_C_3 tileSum
  rw [View.read_writes_eq_canon _ _ _ (cover1_C_3 c t h0 h1 x2 xs0 xs1 xs2)]
  unfold kernelRun1_C
  dsimp only
  sl_unfold_words
  simp only [View.readAt_eq_ld, (hs1_0 t).read_unread, (hs1_1 t).read_unread, (hs1_2 t).read_unread, (hs1_3 t).read_unread,
    Memref.IsWhole.read_unread, e0, e1, e2, View.readCov_unit_zero (S := S2048x1) (View.whole cc1_scratch0) hz2, View.readCov_unit_zero (S := S2048x512) (View.whole cc1_scratch2) hz2, View.readCov_unit_zero (S := S2048x1) scM1_0.view hz2, View.readCov_unit_zero (S := S2048x512) scM1_2.view hz2, View.canon_unit_zero (S := S2048x1) hz2, View.canon_unit_zero (S := S2048x512) hz2, View.canon_cons_unit_zero (S := S2048x1) hz2, View.canon_cons_unit_zero (S := S2048x512) hz2,
    View.ld_unit_zero (S := S2048x1) hz2, View.ld_unit_zero (S := S2048x512) hz2]

theorem sout1_A_2_eq (h0 : t.val % 4 = 0) (h1 : ¬t.val % 4 = 3) (x0 x1 : Vec F S2048x512 .f32) (x2 : Vec F S4096x512 .bf16) :
    sout1_A_2 c t h0 h1 x0 x1 x2 = k1_pay5 x0 := by
  have e0 : ∀ xs : Vec F S2048x1 .f32, View.read (Elt F) (View.whole cc1_scratch0) ((Memref.isWhole_whole cc1_scratch0).unread xs) = xs := fun xs => (Memref.isWhole_whole cc1_scratch0).read_unread xs
  have e1 : ∀ xs : Vec F S2048x1 .f32, View.read (Elt F) (View.whole cc1_scratch1) ((Memref.isWhole_whole cc1_scratch1).unread xs) = xs := fun xs => (Memref.isWhole_whole cc1_scratch1).read_unread xs
  have e2 : ∀ xs : Vec F S2048x512 .bf16, View.read (Elt F) (View.whole cc1_scratch2) ((Memref.isWhole_whole cc1_scratch2).unread xs) = xs := fun xs => (Memref.isWhole_whole cc1_scratch2).read_unread xs
  unfold sout1_A_2
  rw [View.read_writes_eq_canon _ _ _ (scover1_A_2 c t h0 h1 x0 x1 x2)]
  unfold kernelRun1_A
  dsimp only
  sl_unfold_words
  simp only [View.readAt_eq_ld, (hs1_0 t).read_unread, (hs1_1 t).read_unread, (hs1_2 t).read_unread, (hs1_3 t).read_unread,
    Memref.IsWhole.read_unread, e0, e1, e2, View.readCov_unit_zero (S := S2048x1) (View.whole cc1_scratch0) hz2, View.readCov_unit_zero (S := S2048x512) (View.whole cc1_scratch2) hz2, View.readCov_unit_zero (S := S2048x1) scM1_0.view hz2, View.readCov_unit_zero (S := S2048x512) scM1_2.view hz2, View.canon_unit_zero (S := S2048x1) hz2, View.canon_unit_zero (S := S2048x512) hz2, View.canon_cons_unit_zero (S := S2048x1) hz2, View.canon_cons_unit_zero (S := S2048x512) hz2,
    View.ld_unit_zero (S := S2048x1) hz2, View.ld_unit_zero (S := S2048x512) hz2]

theorem sout1_A_1_eq (h0 : t.val % 4 = 0) (h1 : ¬t.val % 4 = 3) (x0 x1 : Vec F S2048x512 .f32) (x2 : Vec F S4096x512 .bf16) :
    sout1_A_1 c t h0 h1 x0 x1 x2 = k1_pay6 x0 x1 := by
  have e0 : ∀ xs : Vec F S2048x1 .f32, View.read (Elt F) (View.whole cc1_scratch0) ((Memref.isWhole_whole cc1_scratch0).unread xs) = xs := fun xs => (Memref.isWhole_whole cc1_scratch0).read_unread xs
  have e1 : ∀ xs : Vec F S2048x1 .f32, View.read (Elt F) (View.whole cc1_scratch1) ((Memref.isWhole_whole cc1_scratch1).unread xs) = xs := fun xs => (Memref.isWhole_whole cc1_scratch1).read_unread xs
  have e2 : ∀ xs : Vec F S2048x512 .bf16, View.read (Elt F) (View.whole cc1_scratch2) ((Memref.isWhole_whole cc1_scratch2).unread xs) = xs := fun xs => (Memref.isWhole_whole cc1_scratch2).read_unread xs
  unfold sout1_A_1
  rw [View.read_writes_eq_canon _ _ _ (scover1_A_1 c t h0 h1 x0 x1 x2)]
  unfold kernelRun1_A
  dsimp only
  sl_unfold_words
  simp only [View.readAt_eq_ld, (hs1_0 t).read_unread, (hs1_1 t).read_unread, (hs1_2 t).read_unread, (hs1_3 t).read_unread,
    Memref.IsWhole.read_unread, e0, e1, e2, View.readCov_unit_zero (S := S2048x1) (View.whole cc1_scratch0) hz2, View.readCov_unit_zero (S := S2048x512) (View.whole cc1_scratch2) hz2, View.readCov_unit_zero (S := S2048x1) scM1_0.view hz2, View.readCov_unit_zero (S := S2048x512) scM1_2.view hz2, View.canon_unit_zero (S := S2048x1) hz2, View.canon_unit_zero (S := S2048x512) hz2, View.canon_cons_unit_zero (S := S2048x1) hz2, View.canon_cons_unit_zero (S := S2048x512) hz2,
    View.ld_unit_zero (S := S2048x1) hz2, View.ld_unit_zero (S := S2048x512) hz2]

theorem sout1_A_0_eq (h0 : t.val % 4 = 0) (h1 : ¬t.val % 4 = 3) (x0 x1 : Vec F S2048x512 .f32) (x2 : Vec F S4096x512 .bf16) :
    sout1_A_0 c t h0 h1 x0 x1 x2 = k1_pay1 (tileSum (k1_pay5 x0) x2) (k1_pay3 (F := F)) := by
  have e0 : ∀ xs : Vec F S2048x1 .f32, View.read (Elt F) (View.whole cc1_scratch0) ((Memref.isWhole_whole cc1_scratch0).unread xs) = xs := fun xs => (Memref.isWhole_whole cc1_scratch0).read_unread xs
  have e1 : ∀ xs : Vec F S2048x1 .f32, View.read (Elt F) (View.whole cc1_scratch1) ((Memref.isWhole_whole cc1_scratch1).unread xs) = xs := fun xs => (Memref.isWhole_whole cc1_scratch1).read_unread xs
  have e2 : ∀ xs : Vec F S2048x512 .bf16, View.read (Elt F) (View.whole cc1_scratch2) ((Memref.isWhole_whole cc1_scratch2).unread xs) = xs := fun xs => (Memref.isWhole_whole cc1_scratch2).read_unread xs
  unfold sout1_A_0 tileSum
  rw [View.read_writes_eq_canon _ _ _ (scover1_A_0 c t h0 h1 x0 x1 x2)]
  unfold kernelRun1_A
  dsimp only
  sl_unfold_words
  simp only [View.readAt_eq_ld, (hs1_0 t).read_unread, (hs1_1 t).read_unread, (hs1_2 t).read_unread, (hs1_3 t).read_unread,
    Memref.IsWhole.read_unread, e0, e1, e2, View.readCov_unit_zero (S := S2048x1) (View.whole cc1_scratch0) hz2, View.readCov_unit_zero (S := S2048x512) (View.whole cc1_scratch2) hz2, View.readCov_unit_zero (S := S2048x1) scM1_0.view hz2, View.readCov_unit_zero (S := S2048x512) scM1_2.view hz2, View.canon_unit_zero (S := S2048x1) hz2, View.canon_unit_zero (S := S2048x512) hz2, View.canon_cons_unit_zero (S := S2048x1) hz2, View.canon_cons_unit_zero (S := S2048x512) hz2,
    View.ld_unit_zero (S := S2048x1) hz2, View.ld_unit_zero (S := S2048x512) hz2]

end

end Cert.KernelIdeal.Hand

end
-- ==== Proof.IdealClosed.lean ====
/-
  The second region's accumulation in closed form.  Within row block i the four column tiles are visited in
  order: the first fills the normalised-x block xn = pay5 X and the similarity column pay6 X P and starts the
  denominator at pay1 (tileSum xn N₀) 0; each later tile adds its own tileSum; the last writes
  pay2 (similarity) (denominator).  So after point 4 i + 3 the output buffer holds
     pay2 (pay6 X P) (pay1 (tileSum xn N₃) (pay1 (tileSum xn N₂) (pay1 (tileSum xn N₁) (pay1 (tileSum xn N₀) 0)))).
-/
import proofs.«172893_j85521388798178_2_alg».proof.Proof.IdealPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b)) (c : Dev nD)

theorem outsAt1_congr {n n' : ℕ} (e : n = n') (hn : n < cfg1.N) (hn' : n' < cfg1.N) : outsAt1 V c n hn = outsAt1 V c n' hn' := by
  subst e; rfl

/-- Point (i, j) of the 4 x 4 grid, in row-major position. -/
def pt (i j : Fin 4) : Fin cfg1.N := ⟨4 * i.val + j.val, by have := i.isLt; have := j.isLt; have : cfg1.N = 16 := N_1; omega⟩

theorem at_first (t : Fin cfg1.N) (h : t.val % 4 = 0) :
    outsAt1 V c t.val t.isLt = (idle3, k1_pay1 (tileSum (k1_pay5 (iblk1 V c 0 t)) (iblk1 V c 2 t)) (k1_pay3 (F := F)), k1_pay6 (iblk1 V c 0 t) (iblk1 V c 1 t), k1_pay5 (iblk1 V c 0 t)) := by
  rw [outsAt1_A V c t h (by omega)]
  unfold tupA
  rw [sout1_A_0_eq, sout1_A_1_eq, sout1_A_2_eq]

theorem at_middle (t : Fin cfg1.N) (h0 : ¬t.val % 4 = 0) (h1 : ¬t.val % 4 = 3) (prev : Vec F S2048x1 .f32 × Vec F S2048x1 .f32 × Vec F S2048x1 .f32 × Vec F S2048x512 .bf16)
    (hp : outsAt1 V c (t.val - 1) (Nat.lt_of_le_of_lt (Nat.sub_le _ _) t.isLt) = prev) :
    outsAt1 V c t.val t.isLt = (idle3, k1_pay1 (tileSum prev.2.2.2 (iblk1 V c 2 t)) prev.2.1, prev.2.2.1, prev.2.2.2) := by
  rw [outsAt1_B V c t h0 h1, hp]
  unfold tupB
  rw [sout1_B_0_eq]

theorem at_last (t : Fin cfg1.N) (h0 : ¬t.val % 4 = 0) (h1 : t.val % 4 = 3) (prev : Vec F S2048x1 .f32 × Vec F S2048x1 .f32 × Vec F S2048x1 .f32 × Vec F S2048x512 .bf16)
    (hp : outsAt1 V c (t.val - 1) (Nat.lt_of_le_of_lt (Nat.sub_le _ _) t.isLt) = prev) :
    (outsAt1 V c t.val t.isLt).1 = k1_pay2 prev.2.2.1 (k1_pay1 (tileSum prev.2.2.2 (iblk1 V c 2 t)) prev.2.1) := by
  rw [outsAt1_C V c t h0 h1, hp]
  unfold tupC
  rw [out1_C_3_eq]

/-- The output buffer after the last column tile of row block `i`. -/
theorem out_closed (i : Fin 4) :
    (outsAt1 V c (pt i 3).val (pt i 3).isLt).1
      = k1_pay2 (k1_pay6 (iblk1 V c 0 (pt i 0)) (iblk1 V c 1 (pt i 0)))
          (k1_pay1 (tileSum (k1_pay5 (iblk1 V c 0 (pt i 0))) (iblk1 V c 2 (pt i 3)))
            (k1_pay1 (tileSum (k1_pay5 (iblk1 V c 0 (pt i 0))) (iblk1 V c 2 (pt i 2)))
              (k1_pay1 (tileSum (k1_pay5 (iblk1 V c 0 (pt i 0))) (iblk1 V c 2 (pt i 1)))
                (k1_pay1 (tileSum (k1_pay5 (iblk1 V c 0 (pt i 0))) (iblk1 V c 2 (pt i 0))) (k1_pay3 (F := F)))))) := by
  have hi := i.isLt
  have e0 := at_first V c (pt i 0) (by show (4 * i.val + 0) % 4 = 0; omega)
  have e1 := at_middle V c (pt i 1) (by show ¬(4 * i.val + 1) % 4 = 0; omega) (by show ¬(4 * i.val + 1) % 4 = 3; omega) _
    ((outsAt1_congr V c (by show 4 * i.val + 1 - 1 = 4 * i.val + 0; omega) _ _).trans e0)
  have e2 := at_middle V c (pt i 2) (by show ¬(4 * i.val + 2) % 4 = 0; omega) (by show ¬(4 * i.val + 2) % 4 = 3; omega) _
    ((outsAt1_congr V c (by show 4 * i.val + 2 - 1 = 4 * i.val + 1; omega) _ _).trans e1)
  exact at_last V c (pt i 3) (by show ¬(4 * i.val + 3) % 4 = 0; omega) (by show (4 * i.val + 3) % 4 = 3; omega) _
    ((outsAt1_congr V c (by show 4 * i.val + 3 - 1 = 4 * i.val + 2; omega) _ _).trans e2)

end

end Cert.KernelIdeal.Hand

end
-- ==== Proof.LibKeepdims.lean ====
import Idealize.ShloMosaic.Lib.Pipeline.Value
import Idealize.ShloMosaic.Lib.ValueIdx

/-!
# A column vector's two layout steps read at an index

A row-wise sum that keeps its axis (`sum (…, axis = -1, keepdims = True)`) reaches a kernel as a vector `[a]`
re-laid as a column `[a, 1]` and later broadcast along the rows to `[a, b]`. Both steps read one entry of the
operand: entry `(i, 0)` of the column is entry `i` of the vector, and entry `(i, c)` of the broadcast is entry
`(i, 0)` of the column. (The companions for a leading unit axis, `[a] → [1, a]` and `[1, b] → [a, b]`, are in the
library's layout file; these are the trailing-unit-axis forms, in the same style.)
-/

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PayIdeal.lean ====
/-
  The idealized kernel's arithmetic, read at an index.

  Each kernel body computes, from the blocks it loads, a vector it stores. Over the extended reals these vectors are:
  a row scaled by the reciprocal square root of its clamped sum of squares (the unit vector of the row, with the
  clamp ε² on the squared norm); the row-wise inner product of two such unit vectors; and, for one block of 2048 rows
  against four blocks of 1024 rows, the sum over the 4096 columns of the exponential of the inner product.
  Every lemma reads one entry of such a vector, at explicit coordinates, as that closed expression.
-/
import proofs.«172893_j85521388798178_2_alg».proof.Proof.Gen.KernelIdeal.Skeleton
import proofs.«172893_j85521388798178_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Pay

open Cert.KernelIdeal Cert.KernelIdeal.Gen Idealize.ShloMosaic Idealize.ShloMosaic.ValueIdx

/-- The clamp on a row's squared norm: the named constant ε². -/
abbrev E : EReal := Named.named (F := Ideal) Cert.KernelIdeal.κ "eps_sq" (φ := .f32) 0x179ABE15#32

/-- The named clamp denotes the rational the certificate's table gives it. -/
theorem named_val : E = ((5316911940649 / 5316911983139663491615228241121378304 : ℝ) : EReal) :=
  IdealRules.named_const.ideal_named_scalar _ _ _ _ rfl

/-! ## Lane sums over the columns of a block -/

/-- A lane sum over the 512 columns of a 2048-row block, at row `r`. -/
theorem rowsum_2048 (w : FVec Ideal S2048x512 .f32) (r : Fin 2048) :
    multiReduction (F := Ideal) .add [1] S2048 w 0x00000000#32 Facts₀.reduces_S2048x512_S2048 (.inl rfl) rfl (ix1 r)
      = ∑ k : Fin 512, w (ix2 r k) := by
  refine (Ideal.multiReduction_add_single w _ Facts₀.reduces_S2048x512_S2048 (.inl rfl) rfl (ix1 r)).trans ?_
  refine Finset.sum_congr rfl fun k _ => congrArg w ?_
  funext a; match a with | ⟨0, _⟩ => rfl | ⟨1, _⟩ => rfl

/-- A lane sum over the 512 columns of a 4096-row block, at row `r`. -/
theorem rowsum_4096 (w : FVec Ideal S4096x512 .f32) (r : Fin 4096) :
    multiReduction (F := Ideal) .add [1] S4096 w 0x00000000#32 Facts₀.reduces_S4096x512_S4096 (.inl rfl) rfl (ix1 r)
      = ∑ k : Fin 512, w (ix2 r k) := by
  refine (Ideal.multiReduction_add_single w _ Facts₀.reduces_S4096x512_S4096 (.inl rfl) rfl (ix1 r)).trans ?_
  refine Finset.sum_congr rfl fun k _ => congrArg w ?_
  funext a; match a with | ⟨0, _⟩ => rfl | ⟨1, _⟩ => rfl

/-- A lane sum over the 1024 columns of a 2048-row block, at row `r`. -/
theorem rowsum_2048x1024 (w : FVec Ideal S2048x1024 .f32) (r : Fin 2048) :
    multiReduction (F := Ideal) .add [1] S2048 w 0x00000000#32 Facts₀.reduces_S2048x1024_S2048 (.inl rfl) rfl (ix1 r)
      = ∑ c : Fin 1024, w (ix2 r c) := by
  refine (Ideal.multiReduction_add_single w _ Facts₀.reduces_S2048x1024_S2048 (.inl rfl) rfl (ix1 r)).trans ?_
  refine Finset.sum_congr rfl fun k _ => congrArg w ?_
  funext a; match a with | ⟨0, _⟩ => rfl | ⟨1, _⟩ => rfl

/-! ## A row scaled to unit length -/

/-- Row `r` of a 2048-row block scaled by the reciprocal square root of its clamped sum of squares: the chain
    square, lane sum, column, clamp, reciprocal square root, broadcast along the row, product — at `(r, d)`. -/
theorem unitRow_2048 (w : FVec Ideal S2048x512 .f32) (r : Fin 2048) (d : Fin 512) :
    mulf w (broadcastTo S2048x512 (rsqrt (maximumf
        (shapeCast S2048x1 (multiReduction (F := Ideal) .add [1] S2048 (mulf w w) 0x00000000#32
          Facts₀.reduces_S2048x512_S2048 (.inl rfl) rfl) Facts₀.shapeCasts_S2048_S2048x1)
        (broadcast S2048x1 E))) Facts₀.broadcasts_S2048x1_S2048x512) (ix2 r d)
      = w (ix2 r d) * Ideal.rsqrt (max (∑ k : Fin 512, w (ix2 r k) * w (ix2 r k)) E) := by
  rw [mulf_apply, broadcastTo_a1_ab_apply]
  show w (ix2 r d) * Ideal.rsqrt (max (shapeCast S2048x1 _ Facts₀.shapeCasts_S2048_S2048x1 (ix2 r (0 : Fin 1))) E) = _
  rw [shapeCast_a_a1_apply, rowsum_2048]
  rfl

/-- The normalising kernel's stored block: row `r` of the 4096-row block scaled to unit length (the narrowing to
    bf16 is the identity on extended reals). -/
theorem k0_pay1_apply (v0 : Vec Ideal S4096x512 .f32) (r : Fin 4096) (d : Fin 512) :
    k0_pay1 v0 (ix2 r d)
      = v0 (ix2 r d) * Ideal.rsqrt (max (∑ k : Fin 512, v0 (ix2 r k) * v0 (ix2 r k)) E) := by
  unfold k0_pay1
  dsimp only
  rw [truncf_apply, mulf_apply, broadcastTo_a1_ab_apply]
  show v0 (ix2 r d) * Ideal.rsqrt (max (shapeCast S4096x1 _ Facts₀.shapeCasts_S4096_S4096x1 (ix2 r (0 : Fin 1))) E) = _
  rw [shapeCast_a_a1_apply, rowsum_4096]
  rfl

/-- Row `r` of the anchor block scaled to unit length. -/
theorem k1_pay4_apply (v45 : Vec Ideal S2048x512 .f32) (r : Fin 2048) (d : Fin 512) :
    k1_pay4 v45 (ix2 r d)
      = v45 (ix2 r d) * Ideal.rsqrt (max (∑ k : Fin 512, v45 (ix2 r k) * v45 (ix2 r k)) E) := by
  unfold k1_pay4
  exact unitRow_2048 v45 r d

/-- The stored bf16 copy of the unit anchor rows: the same extended reals. -/
theorem k1_pay5_apply (v45 : Vec Ideal S2048x512 .f32) (i : S2048x512.Idx) :
    k1_pay5 v45 i = k1_pay4 v45 i := by
  unfold k1_pay5
  rw [shapeCast_self]
  rfl

/-- The positive similarity of row `r`: the inner product of the unit anchor row with the unit positive row. -/
theorem k1_pay6_apply (v45 v58 : Vec Ideal S2048x512 .f32) (r : Fin 2048) :
    k1_pay6 v45 v58 (ix2 r (0 : Fin 1))
      = ∑ d : Fin 512, k1_pay4 v45 (ix2 r d)
          * (v58 (ix2 r d) * Ideal.rsqrt (max (∑ k : Fin 512, v58 (ix2 r k) * v58 (ix2 r k)) E)) := by
  unfold k1_pay6
  dsimp only
  rw [shapeCast_self, shapeCast_a_a1_apply, rowsum_2048]
  refine Finset.sum_congr rfl fun d _ => ?_
  rw [mulf_apply]
  exact congrArg (k1_pay4 v45 (ix2 r d) * ·) (unitRow_2048 v58 r d)

/-! ## The pointwise payloads -/

/-- The running denominator plus this step's contribution. -/
theorem k1_pay1_apply (v32 : FVec Ideal S2048x1 .f32) (v33 : Vec Ideal S2048x1 .f32) (i : S2048x1.Idx) :
    k1_pay1 v32 v33 i = v33 i + v32 i := by
  unfold k1_pay1
  rw [shapeCast_self]
  rfl

/-- The row's loss term: similarity minus the logarithm of the denominator. -/
theorem k1_pay2_apply (v41 v42 : Vec Ideal S2048x1 .f32) (i : S2048x1.Idx) :
    k1_pay2 v41 v42 i = v41 i - Ideal.log (v42 i) := by
  unfold k1_pay2
  rfl

/-- The denominator's initial value: zero. -/
theorem k1_pay3_apply (i : S2048x1.Idx) : k1_pay3 (F := Ideal) i = 0 := by
  unfold k1_pay3
  rw [shapeCast_self]
  exact Ideal.ofBits_zero_f32

/-! ## The product of the anchor block with a block of negatives -/

theorem lhs_coord0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl

theorem lhs_coord1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q

theorem rhs_coord0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl

theorem rhs_coord1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- Entry `(r, c)` of the product into the zero accumulator: the inner product of row `r` of the left block with
    row `c` of the right block. -/
theorem matmul_rc (x : FVec Ideal S2048x512 .bf16) (w : FVec Ideal S1024x512 .bf16) (r : Fin 2048) (c : Fin 1024) :
    matmul dot_S2048x512_S1024x512_S2048x1024_1_1_0_0_n_n none x w (constant (F := Ideal) S2048x1024 .f32 0x00000000#32) (ix2 r c)
      = ∑ d : Fin 512, x (ix2 r d) * w (ix2 c d) := by
  simp only [matmul]
  rw [Ideal.matmul_constant_zero_apply, ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 r c) ((contrEquiv1 dot_S2048x512_S1024x512_S2048x1024_1_1_0_0_n_n 512 rfl rfl).symm k) = ix2 r k := funext fun a => Fin.ext (by
    match a with
    | ⟨0, _⟩ => exact lhs_coord0 _ _
    | ⟨1, _⟩ => exact (lhs_coord1 _ _).trans hk)
  have er : dot_S2048x512_S1024x512_S2048x1024_1_1_0_0_n_n.rhsIdx (ix2 r c) ((contrEquiv1 dot_S2048x512_S1024x512_S2048x1024_1_1_0_0_n_n 512 rfl rfl).symm k) = ix2 c k := funext fun a => Fin.ext (by
    match a with
    | ⟨0, _⟩ => exact rhs_coord0 _ _
    | ⟨1, _⟩ => exact (rhs_coord1 _ _).trans hk)
  rw [el, er]

/-- The sum over the 1024 rows `c` of a block of negatives of the exponential of the inner product of anchor row `r`
    with row `c`. -/
def expRowSum (x : Vec Ideal S2048x512 .bf16) (w : Vec Ideal S1024x512 .bf16) (r : Fin 2048) : EReal :=
  ∑ c : Fin 1024, Ideal.exp (∑ d : Fin 512, x (ix2 r d) * w (ix2 c d))

/-- One block's contribution to the denominator as the kernel computes it: product, exponential, lane sum, column. -/
def blockTerm (x : FVec Ideal S2048x512 .bf16) (w : FVec Ideal S1024x512 .bf16) : FVec Ideal S2048x1 .f32 :=
  shapeCast S2048x1 (multiReduction (F := Ideal) .add [1] S2048
    (exp (matmul dot_S2048x512_S1024x512_S2048x1024_1_1_0_0_n_n none x (shapeCast S1024x512 w Facts₀.shapeCasts_S1024x512_S1024x512)
      (constant (F := Ideal) S2048x1024 .f32 0x00000000#32)))
    0x00000000#32 Facts₀.reduces_S2048x1024_S2048 (.inl rfl) rfl) Facts₀.shapeCasts_S2048_S2048x1

theorem blockTerm_apply (x : FVec Ideal S2048x512 .bf16) (w : FVec Ideal S1024x512 .bf16) (r : Fin 2048) :
    blockTerm x w (ix2 r (0 : Fin 1)) = expRowSum x w r := by
  unfold blockTerm expRowSum
  rw [shapeCast_self, shapeCast_a_a1_apply, rowsum_2048x1024]
  refine Finset.sum_congr rfl fun c _ => ?_
  show Ideal.exp (matmul dot_S2048x512_S1024x512_S2048x1024_1_1_0_0_n_n none x w (constant (F := Ideal) S2048x1024 .f32 0x00000000#32) (ix2 r c)) = _
  rw [matmul_rc]

/-- The step's contribution to the denominator of row `r`: zero plus the four blocks' sums of exponentials, added
    in the order the kernel adds them. -/
theorem k1_pay7_apply (v3 : Vec Ideal S2048x512 .bf16) (v5 v12 v19 v26 : Vec Ideal S1024x512 .bf16) (r : Fin 2048) :
    k1_pay7 v3 v5 v12 v19 v26 (ix2 r (0 : Fin 1))
      = (((0 + expRowSum v3 v5 r) + expRowSum v3 v12 r) + expRowSum v3 v19 r) + expRowSum v3 v26 r := by
  show (((Ideal.ofBits .f32 0x00000000#32 + blockTerm v3 v5 (ix2 r (0 : Fin 1))) + blockTerm v3 v12 (ix2 r (0 : Fin 1)))
      + blockTerm v3 v19 (ix2 r (0 : Fin 1))) + blockTerm v3 v26 (ix2 r (0 : Fin 1)) = _
  rw [Ideal.ofBits_zero_f32, blockTerm_apply, blockTerm_apply, blockTerm_apply, blockTerm_apply]

end Cert.KernelIdeal.Pay

end
-- ==== Proof.IdealValue0.lean ====
import proofs.«172893_j85521388798178_2_alg».proof.Proof.IdealRegion0
import proofs.«172893_j85521388798178_2_alg».proof.Proof.PayIdeal
import Idealize.ShloMosaic.Lib.Pipeline.Value
import Idealize.ShloMosaic.Lib.ValueIdx

/-!
# The first region's value over the extended reals

Every grid point writes back one block of 4096 rows, each row of the input scaled by the reciprocal
square root of its clamped sum of squares. A row lies inside one block, so its sum of squares is the
same whether taken in the block or in the whole array: the array after the region is the
row-normalised input array, one function of the input array.
-/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The row-normalised array: each entry times the reciprocal square root of its row's sum of
    squares, the sum clamped below by ε². -/
def negn (a : S16384x512.Idx → EReal) : S16384x512.Idx → EReal :=
  fun i => a i * Ideal.rsqrt (max (∑ k : Fin 512, a (ix2 (n0 := 16384) (i 0) k) * a (ix2 (n0 := 16384) (i 0) k)) Pay.E)

/-- A block of 4096 whole rows, placed in the array by a map `emb` that shifts the row by a multiple
    of 4096 and keeps the column: the block's normalised rows are the array's normalised rows. -/
theorem negn_block (a : S16384x512.Idx → EReal) (x : Vec Ideal S4096x512 .f32) (n : ℕ)
    (emb : S4096x512.Idx → S16384x512.Idx)
    (hemb0 : ∀ j, ((emb j) 0).val = n * 4096 + (j 0).val) (hemb1 : ∀ j, ((emb j) 1).val = (j 1).val)
    (hx : ∀ j, x j = a (emb j)) (j : S4096x512.Idx) : k0_pay1 x j = negn a (emb j) := by
  have hrow : ∀ k : Fin 512, emb (ix2 (n0 := 4096) (j 0) k) = ix2 (n0 := 16384) ((emb j) 0) k := by
    intro k
    funext b; apply Fin.ext
    match b with
    | ⟨0, _⟩ => show ((emb (ix2 (n0 := 4096) (j 0) k)) 0).val = ((emb j) 0).val; rw [hemb0, hemb0]
    | ⟨1, _⟩ => show ((emb (ix2 (n0 := 4096) (j 0) k)) 1).val = k.val; rw [hemb1]
  obtain ⟨r, d, rfl⟩ : ∃ (r : Fin 4096) (d : Fin 512), j = ix2 r d := ⟨j 0, j 1, eq_ix2 j⟩
  rw [Pay.k0_pay1_apply]
  unfold negn
  rw [hx (ix2 r d)]
  refine congrArg (fun s => a (emb (ix2 r d)) * Ideal.rsqrt (max s Pay.E)) ?_
  refine Finset.sum_congr rfl fun k _ => ?_
  rw [hx (ix2 r k), hrow k]

variable (V : (c : Dev nD) → (b : Ref sig .tc) → Buf (Elt Ideal) ((c : Thread nD τ).loc b))

/-- The printed index maps over the grid: at point `t` both windows are at block row `t`, block column 0. -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the row-normalised input array. -/
theorem flushed0_eq (c : Dev nD) (t : Fin cfg0.N) :
    (dat0 (F := Ideal) V c).flushed 1 t = ((cfg0.win 1).blk t).view.read (Elt Ideal) (negn (V c main_arg2)) := by
  show (cfg0.win 1).cut (grid0.coords t) ((dat0 V c).after 1 t) = _
  rw [after0_1, out0_1_eq]
  obtain ⟨e0, e1, e2, e3⟩ := blockIdx0 t
  funext j
  show k0_pay1 (iblk0 V c 0 t) j = negn (V c main_arg2) (((cfg0.win 1).blk t).view.emb j)
  refine negn_block (V c main_arg2) (iblk0 V c 0 t) t.val (((cfg0.win 1).blk t).view.emb) ?_ ?_ ?_ j
  · intro y
    show win0_1.index t (0 : Fin 2) * 4096 + 1 * (y 0).val = t.val * 4096 + (y 0).val
    rw [e2]; omega
  · intro y
    show win0_1.index t (1 : Fin 2) * 512 + 1 * (y 1).val = (y 1).val
    rw [e3]; omega
  · intro y
    show V c main_arg2 (((cfg0.win 0).blk t).view.emb y) = V c main_arg2 (((cfg0.win 1).blk t).view.emb y)
    refine congrArg _ ?_
    funext b; apply Fin.ext
    match b with
    | ⟨0, _⟩ => show win0_0.index t (0 : Fin 2) * 4096 + 1 * (y 0).val = win0_1.index t (0 : Fin 2) * 4096 + 1 * (y 0).val; rw [e0, e2]
    | ⟨1, _⟩ => show win0_0.index t (1 : Fin 2) * 512 + 1 * (y 1).val = win0_1.index t (1 : Fin 2) * 512 + 1 * (y 1).val; rw [e1, e3]

/-- An index of the array is in point `t`'s block iff each coordinate is in the block's range on its axis. -/
theorem mem_blk0 (t : Fin cfg0.N) (i : S16384x512.Idx) :
    i ∈ ((cfg0.win 1).blk t).view.set ↔ ∀ a : Fin 2, win0_1.index t a * S4096x512.size a ≤ (i a).val ∧ (i a).val < win0_1.index t a * S4096x512.size a + S4096x512.size a := by
  show i ∈ ((View.whole main_v0).slice (win0_1.rect t)).set ↔ _
  rw [View.set_slice_whole, Rect.mem_set_unit]
  exact Iff.rfl

/-- Row `r` is in the block of point `r / 4096`, and every point writes back: the blocks cover the array. -/
theorem cover0 (i : S16384x512.Idx) :
    ∃ t : Fin cfg0.N, (cfg0.win 1).flush t = true ∧ i ∈ ((cfg0.win 1).blk t).view.set := by
  have hi0 : (i 0).val < 16384 := (i 0).isLt
  have hi1 : (i 1).val < 512 := (i 1).isLt
  have hN : cfg0.N = 4 := N_0
  obtain ⟨t, ht⟩ : ∃ t : Fin cfg0.N, t.val = (i 0).val / 4096 := ⟨⟨(i 0).val / 4096, by rw [hN]; omega⟩, rfl⟩
  refine ⟨t, flush0_1 t, ?_⟩
  rw [mem_blk0]
  obtain ⟨e0, e1, e2, e3⟩ := blockIdx0 t
  intro a
  match a with
  | ⟨0, _⟩ =>
    show win0_1.index t (0 : Fin 2) * 4096 ≤ (i 0).val ∧ (i 0).val < win0_1.index t (0 : Fin 2) * 4096 + 4096
    rw [e2, ht]; omega
  | ⟨1, _⟩ =>
    show win0_1.index t (1 : Fin 2) * 512 ≤ (i 1).val ∧ (i 1).val < win0_1.index t (1 : Fin 2) * 512 + 512
    rw [e3]; omega

/-- The output array after the region is the row-normalised input array. -/
theorem final0 (c : Dev nD) : (dat0 (F := Ideal) V c).arrAt 1 cfg0.N = negn (V c main_arg2) :=
  (dat0 V c).arrAt_eq_of_cover 1 (negn (V c main_arg2)) (fun t _ => flushed0_eq V c t) cover0

end Cert.KernelIdeal.Hand

end
-- ==== Proof.IdealValue1.lean ====
/-
  The second region's output array from the blocks its grid points write back.

  The region runs over 16 grid points, point t = 4·i + j for row tile i and column tile j. Its output is a column
  of 8192 reals, cut into four blocks of 2048 rows; the block of row tile i is written back at the last column
  tile only, the points with t mod 4 = 3. If at each such point the block written is the corresponding 2048 rows
  of one function g of the row, the array ends holding g: the four blocks written back tile the column.
-/
import proofs.«172893_j85521388798178_2_alg».proof.Proof.IdealFrame1
import proofs.«172893_j85521388798178_2_alg».proof.Proof.Gen.KernelIdeal.Points
import proofs.«172893_j85521388798178_2_alg».proof.Proof.Gen.KernelIdeal.Launch
import Idealize.ShloMosaic.Lib.Pipeline.Value
import Idealize.ShloMosaic.Lib.ValueIdx

noncomputable section

namespace Cert.KernelIdeal.Val1

open Cert.KernelIdeal Cert.KernelIdeal.Gen Cert.KernelIdeal.Hand
open Idealize.ShloMosaic Idealize.ShloMosaic.TcCoe Idealize.SL.Sem
open Idealize.ShloMosaic.Pipeline (Dat)

/-! ## The output window's blocks -/

/-- The output window's block index at point `t`: row tile `t / 4`, the one column. -/
theorem out_index : ∀ t : Fin cfg1.N, win1_3.index t (0 : Fin 2) = t.val / 4 ∧ win1_3.index t (1 : Fin 2) = 0 :=
  (by decide +kernel : ∀ t : Fin grid1.N, win1_3.index t (0 : Fin 2) = t.val / 4 ∧ win1_3.index t (1 : Fin 2) = 0)

/-- An index of the column is in point `t`'s block iff each coordinate is in the block's range on its axis. -/
theorem mem_out_blk (t : Fin cfg1.N) (i : S8192x1.Idx) :
    i ∈ ((cfg1.win 3).blk t).view.set ↔ ∀ a : Fin 2, win1_3.index t a * S2048x1.size a ≤ (i a).val ∧ (i a).val < win1_3.index t a * S2048x1.size a + S2048x1.size a := by
  show i ∈ ((View.whole main_v1).slice (win1_3.rect t)).set ↔ _
  rw [View.set_slice_whole, Rect.mem_set_unit]
  exact Iff.rfl

/-- Every row of the column lies in the block written back at the last column tile of its row tile. -/
theorem out_cover (i : S8192x1.Idx) :
    ∃ t : Fin cfg1.N, (cfg1.win 3).flush t = true ∧ i ∈ ((cfg1.win 3).blk t).view.set := by
  have hN : cfg1.N = 16 := N_1
  have hi0 : (i 0).val < 8192 := (i 0).isLt
  have hi1 : (i 1).val < 1 := (i 1).isLt
  have ht : 4 * ((i 0).val / 2048) + 3 < cfg1.N := by omega
  obtain ⟨e0, e1⟩ := out_index ⟨4 * ((i 0).val / 2048) + 3, ht⟩
  refine ⟨⟨4 * ((i 0).val / 2048) + 3, ht⟩, (flush1_3 _).mpr (by show (4 * ((i 0).val / 2048) + 3) % 4 = 3; omega), ?_⟩
  rw [mem_out_blk]
  intro a
  match a with
  | ⟨0, _⟩ =>
    show win1_3.index ⟨4 * ((i 0).val / 2048) + 3, ht⟩ (0 : Fin 2) * 2048 ≤ (i 0).val ∧ (i 0).val < win1_3.index ⟨4 * ((i 0).val / 2048) + 3, ht⟩ (0 : Fin 2) * 2048 + 2048
    rw [e0]
    show (4 * ((i 0).val / 2048) + 3) / 4 * 2048 ≤ (i 0).val ∧ (i 0).val < (4 * ((i 0).val / 2048) + 3) / 4 * 2048 + 2048
    omega
  | ⟨1, _⟩ =>
    show win1_3.index ⟨4 * ((i 0).val / 2048) + 3, ht⟩ (1 : Fin 2) * 1 ≤ (i 1).val ∧ (i 1).val < win1_3.index ⟨4 * ((i 0).val / 2048) + 3, ht⟩ (1 : Fin 2) * 1 + 1
    rw [e1]
    omega

/-! ## The column the region leaves -/

section
variable (V : (c : Dev nD) → (b : Ref sig .tc) → Buf (Elt Ideal) ((c : Thread nD τ).loc b))

/-- What a point of the last column tile writes back is its block of the column `g`: rows
    `2048 · (t / 4) … 2048 · (t / 4) + 2047`. -/
theorem out_flushed_eq (c : Dev nD) (g : Fin 8192 → EReal)
    (h : ∀ (t : Fin cfg1.N), t.val % 4 = 3 → ∀ y : Fin 2048,
      (outsAt1 (F := Ideal) V c t.val t.isLt).1 (ValueIdx.ix2 y (0 : Fin 1))
        = g ⟨2048 * (t.val / 4) + y.val, by have := t.isLt; have : cfg1.N = 16 := N_1; have := y.isLt; omega⟩)
    (t : Fin cfg1.N) (hf : (cfg1.win 3).flush t = true) :
    (dat1 (F := Ideal) V c).flushed 3 t
      = ((cfg1.win 3).blk t).view.read (Elt Ideal) (fun i : S8192x1.Idx => g (i 0)) := by
  have h3 : t.val % 4 = 3 := (flush1_3 t).mp hf
  obtain ⟨e0, e1⟩ := out_index t
  show (cfg1.win 3).cut (grid1.coords t) ((dat1 (F := Ideal) V c).after 3 t) = _
  rw [after1_3]
  funext j
  have hj0 : (j 0).val < 2048 := (j 0).isLt
  have hj1 : (j 1).val < 1 := (j 1).isLt
  have hl : (cfg1.win 3).xinj (grid1.coords t) j = ValueIdx.ix2 (⟨(j 0).val, hj0⟩ : Fin 2048) (0 : Fin 1) := by
    funext a; apply Fin.ext
    match a with
    | ⟨0, _⟩ => rfl
    | ⟨1, _⟩ => show (j 1).val = 0; omega
  show (outsAt1 (F := Ideal) V c t.val t.isLt).1 ((cfg1.win 3).xinj (grid1.coords t) j)
    = g ((((cfg1.win 3).blk t).view.emb j) 0)
  refine (congrArg (outsAt1 (F := Ideal) V c t.val t.isLt).1 hl).trans
    ((h t h3 ⟨(j 0).val, hj0⟩).trans (congrArg g (Fin.ext ?_)))
  show 2048 * (t.val / 4) + (j 0).val = win1_3.index t (0 : Fin 2) * 2048 + 1 * (j 0).val
  rw [e0]; omega

/-- So after the region the output column holds `g`, row by row. -/
theorem final1 (c : Dev nD) (g : Fin 8192 → EReal)
    (h : ∀ (t : Fin cfg1.N), t.val % 4 = 3 → ∀ y : Fin 2048,
      (outsAt1 (F := Ideal) V c t.val t.isLt).1 (ValueIdx.ix2 y (0 : Fin 1))
        = g ⟨2048 * (t.val / 4) + y.val, by have := t.isLt; have : cfg1.N = 16 := N_1; have := y.isLt; omega⟩) :
    (dat1 (F := Ideal) V c).arrAt 3 cfg1.N = fun i : S8192x1.Idx => g (i 0) :=
  (dat1 (F := Ideal) V c).arrAt_eq_of_cover 3 _ (fun t hf => out_flushed_eq V c g h t hf) out_cover

end

end Cert.KernelIdeal.Val1

end
-- ==== Proof.IdealBlocks1.lean ====
/-
  The second region's input blocks read at an index.

  At grid point t = 4·i + j the region reads rows 2048·i … 2048·i + 2047 of the anchors and of the positives, and
  rows 4096·j … 4096·j + 4095 of the unit negatives; the body reads the latter in four slices of 1024 rows. Each
  lemma reads one entry of such a block, or of a slice of it, as the entry of the array it comes from.
-/
import proofs.«172893_j85521388798178_2_alg».proof.Proof.IdealFrame1
import proofs.«172893_j85521388798178_2_alg».proof.Proof.Gen.KernelIdeal.Points
import proofs.«172893_j85521388798178_2_alg».proof.Proof.Gen.KernelIdeal.Launch
import Idealize.ShloMosaic.Lib.Pipeline.Value
import Idealize.ShloMosaic.Lib.ValueIdx

noncomputable section

namespace Cert.KernelIdeal.Val1

open Cert.KernelIdeal Cert.KernelIdeal.Gen Cert.KernelIdeal.Hand
open Idealize.ShloMosaic Idealize.ShloMosaic.TcCoe Idealize.SL.Sem
open Idealize.ShloMosaic.Pipeline (Dat)

/-- The input windows' block indices at point `t`: the anchors and the positives move with the row tile `t / 4`,
    the negatives with the column tile `t mod 4`. -/
theorem in_index : ∀ t : Fin cfg1.N, win1_0.index t (0 : Fin 2) = t.val / 4 ∧ win1_0.index t (1 : Fin 2) = 0
    ∧ win1_1.index t (0 : Fin 2) = t.val / 4 ∧ win1_1.index t (1 : Fin 2) = 0
    ∧ win1_2.index t (0 : Fin 2) = t.val % 4 ∧ win1_2.index t (1 : Fin 2) = 0 :=
  (by decide +kernel : ∀ t : Fin grid1.N, win1_0.index t (0 : Fin 2) = t.val / 4 ∧ win1_0.index t (1 : Fin 2) = 0
    ∧ win1_1.index t (0 : Fin 2) = t.val / 4 ∧ win1_1.index t (1 : Fin 2) = 0
    ∧ win1_2.index t (0 : Fin 2) = t.val % 4 ∧ win1_2.index t (1 : Fin 2) = 0)

section
variable {F : FTy → Type} [FloatOps F] [Named F]
variable (V : (c : Dev nD) → (b : Ref sig .tc) → Buf (Elt F) ((c : Thread nD τ).loc b))

/-- Row `y` of the anchors' block at point `t` is row `2048 · (t / 4) + y` of the anchors. -/
theorem blk0_apply (c : Dev nD) (t : Fin cfg1.N) (y : Fin 2048) (d : Fin 512) :
    iblk1 V c 0 t (ValueIdx.ix2 y d)
      = V c main_arg0 (ValueIdx.ix2 (⟨2048 * (t.val / 4) + y.val, by have := t.isLt; have : cfg1.N = 16 := N_1; have := y.isLt; omega⟩ : Fin 8192) d) := by
  obtain ⟨e0, e1, -, -, -, -⟩ := in_index t
  show V c main_arg0 (((cfg1.win 0).blk t).view.emb (ValueIdx.ix2 y d)) = _
  refine congrArg (V c main_arg0) (funext fun a => Fin.ext ?_)
  match a with
  | ⟨0, _⟩ =>
    show win1_0.index t (0 : Fin 2) * 2048 + 1 * y.val = 2048 * (t.val / 4) + y.val
    rw [e0]; omega
  | ⟨1, _⟩ =>
    show win1_0.index t (1 : Fin 2) * 512 + 1 * d.val = d.val
    rw [e1]; omega

/-- Row `y` of the positives' block at point `t` is row `2048 · (t / 4) + y` of the positives. -/
theorem blk1_apply (c : Dev nD) (t : Fin cfg1.N) (y : Fin 2048) (d : Fin 512) :
    iblk1 V c 1 t (ValueIdx.ix2 y d)
      = V c main_arg1 (ValueIdx.ix2 (⟨2048 * (t.val / 4) + y.val, by have := t.isLt; have : cfg1.N = 16 := N_1; have := y.isLt; omega⟩ : Fin 8192) d) := by
  obtain ⟨-, -, e0, e1, -, -⟩ := in_index t
  show V c main_arg1 (((cfg1.win 1).blk t).view.emb (ValueIdx.ix2 y d)) = _
  refine congrArg (V c main_arg1) (funext fun a => Fin.ext ?_)
  match a with
  | ⟨0, _⟩ =>
    show win1_1.index t (0 : Fin 2) * 2048 + 1 * y.val = 2048 * (t.val / 4) + y.val
    rw [e0]; omega
  | ⟨1, _⟩ =>
    show win1_1.index t (1 : Fin 2) * 512 + 1 * d.val = d.val
    rw [e1]; omega

/-- Row `y` of the negatives' block at point `t` is row `4096 · (t mod 4) + y` of the unit negatives. -/
theorem blk2_apply (c : Dev nD) (t : Fin cfg1.N) (y : Fin 4096) (d : Fin 512) :
    iblk1 V c 2 t (ValueIdx.ix2 y d)
      = V c main_v0 (ValueIdx.ix2 (⟨4096 * (t.val % 4) + y.val, by have := y.isLt; omega⟩ : Fin 16384) d) := by
  obtain ⟨-, -, -, -, e0, e1⟩ := in_index t
  show V c main_v0 (((cfg1.win 2).blk t).view.emb (ValueIdx.ix2 y d)) = _
  refine congrArg (V c main_v0) (funext fun a => Fin.ext ?_)
  match a with
  | ⟨0, _⟩ =>
    show win1_2.index t (0 : Fin 2) * 4096 + 1 * y.val = 4096 * (t.val % 4) + y.val
    rw [e0]; omega
  | ⟨1, _⟩ =>
    show win1_2.index t (1 : Fin 2) * 512 + 1 * d.val = d.val
    rw [e1]; omega

/-- Rows 0 … 1023 of the negatives' block at point `t`: rows `4096 · (t mod 4) + 0 + k` of the array. -/
theorem blk2_slice0_apply (c : Dev nD) (t : Fin cfg1.N) (k : Fin 1024) (d : Fin 512) :
    View.ld (iblk1 V c 2 t) (Rect.unit (s := S4096x512) ![0, 0] S1024x512.size Facts₀.inb_S4096x512_S1024x512_0_0) (ValueIdx.ix2 k d)
      = V c main_v0 (ValueIdx.ix2 (⟨4096 * (t.val % 4) + 0 + k.val, by have := k.isLt; omega⟩ : Fin 16384) d) := by
  obtain ⟨-, -, -, -, e0, e1⟩ := in_index t
  show V c main_v0 (((cfg1.win 2).blk t).view.emb
    ((Rect.unit (s := S4096x512) ![0, 0] S1024x512.size Facts₀.inb_S4096x512_S1024x512_0_0).idx (ValueIdx.ix2 k d))) = _
  refine congrArg (V c main_v0) (funext fun a => Fin.ext ?_)
  match a with
  | ⟨0, _⟩ =>
    show win1_2.index t (0 : Fin 2) * 4096 + 1 * (0 + 1 * k.val) = 4096 * (t.val % 4) + 0 + k.val
    rw [e0]; omega
  | ⟨1, _⟩ =>
    show win1_2.index t (1 : Fin 2) * 512 + 1 * (0 + 1 * d.val) = d.val
    rw [e1]; omega

/-- Rows 1024 … 2047 of the negatives' block at point `t`: rows `4096 · (t mod 4) + 1024 + k` of the array. -/
theorem blk2_slice1024_apply (c : Dev nD) (t : Fin cfg1.N) (k : Fin 1024) (d : Fin 512) :
    View.ld (iblk1 V c 2 t) (Rect.unit (s := S4096x512) ![1024, 0] S1024x512.size Facts₀.inb_S4096x512_S1024x512_1024_0) (ValueIdx.ix2 k d)
      = V c main_v0 (ValueIdx.ix2 (⟨4096 * (t.val % 4) + 1024 + k.val, by have := k.isLt; omega⟩ : Fin 16384) d) := by
  obtain ⟨-, -, -, -, e0, e1⟩ := in_index t
  show V c main_v0 (((cfg1.win 2).blk t).view.emb
    ((Rect.unit (s := S4096x512) ![1024, 0] S1024x512.size Facts₀.inb_S4096x512_S1024x512_1024_0).idx (ValueIdx.ix2 k d))) = _
  refine congrArg (V c main_v0) (funext fun a => Fin.ext ?_)
  match a with
  | ⟨0, _⟩ =>
    show win1_2.index t (0 : Fin 2) * 4096 + 1 * (1024 + 1 * k.val) = 4096 * (t.val % 4) + 1024 + k.val
    rw [e0]; omega
  | ⟨1, _⟩ =>
    show win1_2.index t (1 : Fin 2) * 512 + 1 * (0 + 1 * d.val) = d.val
    rw [e1]; omega

/-- Rows 2048 … 3071 of the negatives' block at point `t`: rows `4096 · (t mod 4) + 2048 + k` of the array. -/
theorem blk2_slice2048_apply (c : Dev nD) (t : Fin cfg1.N) (k : Fin 1024) (d : Fin 512) :
    View.ld (iblk1 V c 2 t) (Rect.unit (s := S4096x512) ![2048, 0] S1024x512.size Facts₀.inb_S4096x512_S1024x512_2048_0) (ValueIdx.ix2 k d)
      = V c main_v0 (ValueIdx.ix2 (⟨4096 * (t.val % 4) + 2048 + k.val, by have := k.isLt; omega⟩ : Fin 16384) d) := by
  obtain ⟨-, -, -, -, e0, e1⟩ := in_index t
  show V c main_v0 (((cfg1.win 2).blk t).view.emb
    ((Rect.unit (s := S4096x512) ![2048, 0] S1024x512.size Facts₀.inb_S4096x512_S1024x512_2048_0).idx (ValueIdx.ix2 k d))) = _
  refine congrArg (V c main_v0) (funext fun a => Fin.ext ?_)
  match a with
  | ⟨0, _⟩ =>
    show win1_2.index t (0 : Fin 2) * 4096 + 1 * (2048 + 1 * k.val) = 4096 * (t.val % 4) + 2048 + k.val
    rw [e0]; omega
  | ⟨1, _⟩ =>
    show win1_2.index t (1 : Fin 2) * 512 + 1 * (0 + 1 * d.val) = d.val
    rw [e1]; omega

/-- Rows 3072 … 4095 of the negatives' block at point `t`: rows `4096 · (t mod 4) + 3072 + k` of the array. -/
theorem blk2_slice3072_apply (c : Dev nD) (t : Fin cfg1.N) (k : Fin 1024) (d : Fin 512) :
    View.ld (iblk1 V c 2 t) (Rect.unit (s := S4096x512) ![3072, 0] S1024x512.size Facts₀.inb_S4096x512_S1024x512_3072_0) (ValueIdx.ix2 k d)
      = V c main_v0 (ValueIdx.ix2 (⟨4096 * (t.val % 4) + 3072 + k.val, by have := k.isLt; omega⟩ : Fin 16384) d) := by
  obtain ⟨-, -, -, -, e0, e1⟩ := in_index t
  show V c main_v0 (((cfg1.win 2).blk t).view.emb
    ((Rect.unit (s := S4096x512) ![3072, 0] S1024x512.size Facts₀.inb_S4096x512_S1024x512_3072_0).idx (ValueIdx.ix2 k d))) = _
  refine congrArg (V c main_v0) (funext fun a => Fin.ext ?_)
  match a with
  | ⟨0, _⟩ =>
    show win1_2.index t (0 : Fin 2) * 4096 + 1 * (3072 + 1 * k.val) = 4096 * (t.val % 4) + 3072 + k.val
    rw [e0]; omega
  | ⟨1, _⟩ =>
    show win1_2.index t (1 : Fin 2) * 512 + 1 * (0 + 1 * d.val) = d.val
    rw [e1]; omega

end

end Cert.KernelIdeal.Val1

end
-- ==== Proof.Spec.lean ====
/-
  The loss both programs compute, as one function of the three argument arrays over the extended reals.

  For a row v of 512 reals, its clamped norm is max(sqrt(Σ v_k²), ε) with ε the binary value of the reference's
  word 0x2B8CBCCC (f32 of 1e-12), and its unit vector is v / (clamped norm).  With x̂, p̂ (8192 rows) and n̂ (16384 rows)
  the unit vectors of the rows of the arguments,
      sim r    = Σ_d x̂ r d · p̂ r d
      logit r c = Σ_d x̂ r d · n̂ c d
      denom r  = Σ_c exp(logit r c)
      loss     = −(Σ_r (sim r − log(denom r))) / 8192 .
-/
import Idealize.ShloMosaic.PureOps.Ideal
import Mathlib

noncomputable section

namespace Cert.CosineSpec

open Idealize.ShloMosaic

/-- The reference's clamp: the exact binary value of the f32 word nearest 1e-12. -/
def epsR : EReal := Ideal.ofBits .f32 0x2B8CBCCC#32

/-- Sum of squares of row `r`. -/
def sumSq {n : ℕ} (v : Fin n → Fin 512 → EReal) (r : Fin n) : EReal := ∑ k : Fin 512, v r k * v r k

/-- The clamped Euclidean norm of row `r`: max(sqrt(Σ_k v_k²), ε). -/
def rowNorm {n : ℕ} (v : Fin n → Fin 512 → EReal) (r : Fin n) : EReal := max (Ideal.sqrt (sumSq v r)) epsR

/-- Row `r` divided by its clamped norm. -/
def unit {n : ℕ} (v : Fin n → Fin 512 → EReal) (r : Fin n) (d : Fin 512) : EReal := Ideal.div (v r d) (rowNorm v r)

/-- Cosine similarity of row `r` of `x` with row `r` of `p`. -/
def sim (x p : Fin 8192 → Fin 512 → EReal) (r : Fin 8192) : EReal := ∑ d : Fin 512, unit x r d * unit p r d

/-- Cosine similarity of row `r` of `x` with row `c` of `n`. -/
def logit (x : Fin 8192 → Fin 512 → EReal) (n : Fin 16384 → Fin 512 → EReal) (r : Fin 8192) (c : Fin 16384) : EReal :=
  ∑ d : Fin 512, unit x r d * unit n c d

/-- The softmax denominator of row `r`: Σ_c exp(logit r c). -/
def denom (x : Fin 8192 → Fin 512 → EReal) (n : Fin 16384 → Fin 512 → EReal) (r : Fin 8192) : EReal :=
  ∑ c : Fin 16384, Ideal.exp (logit x n r c)

/-- The loss: −(Σ_r (sim r − log(denom r))) / 8192, the divisor the exact value of the word 0x46000000. -/
def loss (x p : Fin 8192 → Fin 512 → EReal) (n : Fin 16384 → Fin 512 → EReal) : EReal :=
  Ideal.div (-(∑ r : Fin 8192, (sim x p r - Ideal.log (denom x n r)))) (Ideal.ofBits .f32 0x46000000#32)

end Cert.CosineSpec

end
-- ==== Proof.LibCosineAlgebra.lean ====
import Mathlib
import Idealize.ShloMosaic.PureOps.Ideal
import Idealize.ShloMosaic.PureOps.Ideal.Laws
import proofs.«172893_j85521388798178_2_alg».proof.Proof.Spec

/-!
  Algebra on the extended reals behind the cosine normalisation.

  * The clamp constant ε of the specification is the real 9223372 · 2⁻⁶³, and the rational
    5316911940649 · 2⁻¹²² is its square.
  * For a real s ≥ 0:  a · rsqrt(max(s, ε²)) = a / max(√s, ε), because √ is monotone, so
    √(max(s, ε²)) = max(√s, ε), and that maximum is a positive real.
  * A finite sum over 16384 indices regroups as 4 × 4 × 1024, one over 8192 indices as 4 × 2048; a left-nested
    accumulation starting from 0 is the finite sum.
-/

noncomputable section

namespace Cert.CosineAlgebra

open Idealize.ShloMosaic
open Cert.CosineSpec

/-! ### The clamp constant -/

/-- ε = 9223372 · 2⁻⁶³ as a real number. -/
def epsReal : ℝ := 9223372 / 9223372036854775808

theorem epsReal_pos : 0 < epsReal := by unfold epsReal; norm_num

/-- The specification's clamp is the real 9223372 · 2⁻⁶³. -/
theorem epsR_val : epsR = ((9223372 / 9223372036854775808 : ℝ) : EReal) := by
  show Ideal.ofBits .f32 0x2B8CBCCC#32 = _
  simp [Ideal.ofBits, Ideal.ieee, -EReal.coe_mul]; norm_num

theorem epsR_eq_coe : epsR = (epsReal : EReal) := epsR_val

/-- The named rational constant is ε². -/
theorem eps_sq : ((5316911940649 / 5316911983139663491615228241121378304 : ℝ) : EReal) = epsR * epsR := by
  rw [epsR_val, ← EReal.coe_mul]
  congr 1
  norm_num

theorem epsR_mul_self : epsR * epsR = ((epsReal * epsReal : ℝ) : EReal) := by
  rw [epsR_eq_coe, ← EReal.coe_mul]

/-! ### The clamp: rsqrt of the clamped square against division by the clamped root -/

/-- The maximum of two reals, taken in the extended reals. -/
theorem coe_max' (s t : ℝ) : max (s : EReal) (t : EReal) = ((max s t : ℝ) : EReal) :=
  (EReal.coe_strictMono.monotone.map_max).symm

/-- √(max(s, e²)) = max(√s, e) for e ≥ 0. -/
theorem sqrt_max_sq (s e : ℝ) (he : 0 ≤ e) : Real.sqrt (max s (e * e)) = max (Real.sqrt s) e := by
  rw [Real.sqrt_monotone.map_max, Real.sqrt_mul_self he]

theorem clamp_eq (a s : ℝ) (hs : 0 ≤ s) :
    (a : EReal) * Ideal.rsqrt (max (s : EReal) (epsR * epsR))
      = Ideal.div (a : EReal) (max (Ideal.sqrt (s : EReal)) epsR) := by
  have he := epsReal_pos
  have hy : 0 < max s (epsReal * epsReal) := lt_max_of_lt_right (mul_pos he he)
  have hm : 0 < max (Real.sqrt s) epsReal := lt_max_of_lt_right he
  rw [epsR_mul_self, coe_max', Ideal.rsqrt_coe, if_neg (not_lt.mpr hy.le), if_neg hy.ne',
    Ideal.sqrt_coe, if_neg (not_lt.mpr hs), epsR_eq_coe, coe_max', Ideal.div_coe hm.ne',
    sqrt_max_sq s epsReal he.le, one_div]

/-! ### Rows of reals -/

/-- The coercion of the reals commutes with finite sums. -/
theorem coe_finset_sum' {ι : Type*} (t : Finset ι) (g : ι → ℝ) :
    ∑ i ∈ t, (g i : EReal) = ((∑ i ∈ t, g i : ℝ) : EReal) := by
  classical
  induction t using Finset.induction_on with
  | empty => simp
  | insert i t hi ih => rw [Finset.sum_insert hi, Finset.sum_insert hi, ih, EReal.coe_add]

/-- The sum of squares of a row of reals is the (nonnegative) real sum of squares. -/
theorem sumSq_coe {n : ℕ} (v : Fin n → Fin 512 → EReal) (a : Fin n → Fin 512 → ℝ)
    (ha : ∀ r k, v r k = (a r k : EReal)) (r : Fin n) :
    sumSq v r = ((∑ k, a r k * a r k : ℝ) : EReal) := by
  show ∑ k : Fin 512, v r k * v r k = _
  rw [← coe_finset_sum']
  refine Finset.sum_congr rfl fun k _ => ?_
  rw [ha, EReal.coe_mul]

/-- For a row of reals, multiplying by rsqrt of the clamped sum of squares is dividing by the clamped norm. -/
theorem unit_eq {n : ℕ} (v : Fin n → Fin 512 → EReal) (hv : ∀ r k, ∃ a : ℝ, v r k = (a : EReal))
    (r : Fin n) (d : Fin 512) :
    v r d * Ideal.rsqrt (max (sumSq v r) (epsR * epsR)) = unit v r d := by
  choose a ha using hv
  show _ = Ideal.div (v r d) (max (Ideal.sqrt (sumSq v r)) epsR)
  rw [sumSq_coe v a ha r, ha r d]
  exact clamp_eq _ _ (Finset.sum_nonneg fun k _ => mul_self_nonneg _)

/-! ### Regrouping finite sums -/

/-- A sum over m·n indices is the sum over m blocks of n consecutive indices. -/
theorem sum_fin_mul {M : Type*} [AddCommMonoid M] (m n N : ℕ) (h : m * n = N) (g : Fin N → M) :
    ∑ c, g c = ∑ i : Fin m, ∑ j : Fin n, g ⟨n * i.val + j.val, by
      have hi := i.isLt
      have hj := j.isLt
      calc n * i.val + j.val < n * i.val + n := by omega
        _ = n * (i.val + 1) := by ring
        _ ≤ n * m := Nat.mul_le_mul_left _ (by omega)
        _ = N := by rw [Nat.mul_comm]; exact h⟩ := by
  subst h
  rw [← Equiv.sum_comp finProdFinEquiv g, Fintype.sum_prod_type]
  refine Finset.sum_congr rfl fun i _ => Finset.sum_congr rfl fun j _ => ?_
  congr 1
  ext
  simp [finProdFinEquiv, Nat.add_comm]

/-- 16384 columns as 4 tiles of 4 chunks of 1024. -/
theorem sum_cols {M : Type*} [AddCommMonoid M] (f : Fin 16384 → M) :
    ∑ c, f c = ∑ j : Fin 4, ∑ q : Fin 4, ∑ k : Fin 1024,
      f ⟨4096 * j.val + 1024 * q.val + k.val, by omega⟩ := by
  rw [sum_fin_mul 4 4096 16384 (by norm_num) f]
  refine Finset.sum_congr rfl fun j _ => ?_
  refine (sum_fin_mul 4 1024 4096 (by norm_num)
    (fun c : Fin 4096 => f ⟨4096 * j.val + c.val, by omega⟩)).trans ?_
  refine Finset.sum_congr rfl fun q _ => Finset.sum_congr rfl fun k _ => ?_
  congr 1
  ext
  simp [Nat.add_assoc]

/-- 8192 rows as 4 blocks of 2048. -/
theorem sum_rows {M : Type*} [AddCommMonoid M] (g : Fin 8192 → M) :
    ∑ r, g r = ∑ i : Fin 4, ∑ y : Fin 2048, g ⟨2048 * i.val + y.val, by omega⟩ :=
  sum_fin_mul 4 2048 8192 (by norm_num) g

/-! ### Left-nested accumulation from zero -/

/-- Four terms accumulated from zero, left to right. -/
theorem acc_four {M : Type*} [AddCommMonoid M] (g : Fin 4 → M) :
    (((0 + g 0) + g 1) + g 2) + g 3 = ∑ q, g q := by
  simp only [Fin.sum_univ_four, zero_add]

/-- Four tiles of four chunks, each tile accumulated from zero and the tiles accumulated from zero. -/
theorem acc_tiles {M : Type*} [AddCommMonoid M] (b : Fin 4 → Fin 4 → M) :
    (((0 + ((((0 + b 0 0) + b 0 1) + b 0 2) + b 0 3))
        + ((((0 + b 1 0) + b 1 1) + b 1 2) + b 1 3))
        + ((((0 + b 2 0) + b 2 1) + b 2 2) + b 2 3))
        + ((((0 + b 3 0) + b 3 1) + b 3 2) + b 3 3) = ∑ j, ∑ q, b j q := by
  simp only [Fin.sum_univ_four, zero_add]

end Cert.CosineAlgebra

end
-- ==== Proof.IdealBridge.lean ====
/-
  One block of 2048 rows of the second kernel, against the specification.

  For a block of anchor rows and the matching block of positive rows, the kernel forms the unit vectors by scaling
  each row with the reciprocal square root of its squared norm clamped at ε², takes the row-wise inner product, and,
  over four steps of four blocks of 1024 already normalised negative rows each, accumulates from zero the sum of the
  exponentials of the inner products.  For rows of reals, scaling by the reciprocal square root of the clamped square
  is dividing by the clamped norm, so the similarity is the specification's and the accumulated sums regroup
  (4 × 4 × 1024 = 16384) into the specification's softmax denominator.  The stored value is their difference
  similarity − log(denominator).
-/
import proofs.«172893_j85521388798178_2_alg».proof.Proof.PayIdeal
import proofs.«172893_j85521388798178_2_alg».proof.Proof.LibCosineAlgebra
import proofs.«172893_j85521388798178_2_alg».proof.Proof.Spec
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.ValueIdx
open Cert.CosineSpec Cert.CosineAlgebra

/-- Row `y` of row block `i`, among the 8192 rows. -/
abbrev row (i : Fin 4) (y : Fin 2048) : Fin 8192 := ⟨2048 * i.val + y.val, by omega⟩
/-- Row `k` of chunk `q` of tile `j`, among the 16384 rows of negatives. -/
abbrev col (j q : Fin 4) (k : Fin 1024) : Fin 16384 := ⟨4096 * j.val + 1024 * q.val + k.val, by omega⟩

/-- The kernel's clamp on the squared norm is the square of the specification's clamp on the norm. -/
theorem E_eq : Pay.E = epsR * epsR := Pay.named_val.trans eps_sq

/-- A row of a block that holds row `r` of an array of reals, scaled by the reciprocal square root of its clamped
    sum of squares, is the unit vector of row `r`. -/
theorem unit_of_block {N m : ℕ} (v : Fin N → Fin 512 → EReal) (hv : ∀ r k, ∃ a : ℝ, v r k = (a : EReal))
    (w : (⟨2, ![m, 512]⟩ : Shape).Idx → EReal) (y : Fin m) (r : Fin N) (h : ∀ d, w (ix2 y d) = v r d) (d : Fin 512) :
    w (ix2 y d) * Ideal.rsqrt (max (∑ k : Fin 512, w (ix2 y k) * w (ix2 y k)) Pay.E) = unit v r d := by
  have hs : (∑ k : Fin 512, w (ix2 y k) * w (ix2 y k)) = sumSq v r :=
    Finset.sum_congr rfl fun k _ => by rw [h k]
  rw [hs, h d, E_eq]
  exact unit_eq v hv r d

section Block

variable (x p : Fin 8192 → Fin 512 → EReal) (n : Fin 16384 → Fin 512 → EReal)
  (hx : ∀ r k, ∃ a : ℝ, x r k = (a : EReal)) (hp : ∀ r k, ∃ a : ℝ, p r k = (a : EReal))
  (hn : ∀ r k, ∃ a : ℝ, n r k = (a : EReal))
  (i : Fin 4) (xb pb : Vec Ideal S2048x512 .f32)
  (hxb : ∀ (y : Fin 2048) (d : Fin 512), xb (ix2 y d) = x (row i y) d)
  (hpb : ∀ (y : Fin 2048) (d : Fin 512), pb (ix2 y d) = p (row i y) d)
  (nb : Fin 4 → Fin 4 → Vec Ideal S1024x512 .bf16)
  (hnb : ∀ (j q : Fin 4) (k : Fin 1024) (d : Fin 512),
    nb j q (ix2 k d) = n (col j q k) d * Ideal.rsqrt (max (sumSq n (col j q k)) Pay.E))

/-- The denominator accumulator after the first tile of negatives. -/
def accA : Vec Ideal S2048x1 .f32 :=
  k1_pay1 (k1_pay7 (k1_pay5 xb) (nb 0 0) (nb 0 1) (nb 0 2) (nb 0 3)) (k1_pay3 (F := Ideal))
/-- … after the second. -/
def accB : Vec Ideal S2048x1 .f32 :=
  k1_pay1 (k1_pay7 (k1_pay5 xb) (nb 1 0) (nb 1 1) (nb 1 2) (nb 1 3)) (accA xb nb)
/-- … after the third. -/
def accC : Vec Ideal S2048x1 .f32 :=
  k1_pay1 (k1_pay7 (k1_pay5 xb) (nb 2 0) (nb 2 1) (nb 2 2) (nb 2 3)) (accB xb nb)
/-- … after the fourth and last. -/
def accD : Vec Ideal S2048x1 .f32 :=
  k1_pay1 (k1_pay7 (k1_pay5 xb) (nb 3 0) (nb 3 1) (nb 3 2) (nb 3 3)) (accC xb nb)

include hx hxb in
/-- The scaled anchor row is the unit vector of the anchor row. -/
theorem pay4_unit (y : Fin 2048) (d : Fin 512) : k1_pay4 xb (ix2 y d) = unit x (row i y) d := by
  rw [Pay.k1_pay4_apply]
  exact unit_of_block x hx xb y (row i y) (hxb y) d

include hx hxb in
/-- Its stored copy likewise. -/
theorem pay5_unit (y : Fin 2048) (d : Fin 512) : k1_pay5 xb (ix2 y d) = unit x (row i y) d := by
  rw [Pay.k1_pay5_apply]
  exact pay4_unit x hx i xb hxb y d

include hn hnb in
/-- A stored negative row is the unit vector of that row. -/
theorem nb_unit (j q : Fin 4) (k : Fin 1024) (d : Fin 512) : nb j q (ix2 k d) = unit n (col j q k) d := by
  rw [hnb j q k d, E_eq]
  exact unit_eq n hn (col j q k) d

include hx hp hxb hpb in
/-- The kernel's similarity of row `y` of the block is the specification's. -/
theorem pay6_sim (y : Fin 2048) : k1_pay6 xb pb (ix2 y (0 : Fin 1)) = sim x p (row i y) := by
  rw [Pay.k1_pay6_apply]
  refine Finset.sum_congr rfl fun d _ => ?_
  rw [pay4_unit x hx i xb hxb y d, unit_of_block p hp pb y (row i y) (hpb y) d]

include hx hn hxb hnb in
/-- One chunk's sum of exponentials is the specification's, over the chunk's 1024 rows of negatives. -/
theorem chunk_eq (j q : Fin 4) (y : Fin 2048) :
    Pay.expRowSum (k1_pay5 xb) (nb j q) y = ∑ k : Fin 1024, Ideal.exp (logit x n (row i y) (col j q k)) := by
  unfold Pay.expRowSum
  refine Finset.sum_congr rfl fun k _ => congrArg Ideal.exp ?_
  refine Finset.sum_congr rfl fun d _ => ?_
  exact congrArg₂ (· * ·) (pay5_unit x hx i xb hxb y d) (nb_unit n hn nb hnb j q k d)

include hx hn hxb hnb in
/-- The accumulator after the four tiles is the specification's softmax denominator. -/
theorem accD_denom (y : Fin 2048) : accD xb nb (ix2 y (0 : Fin 1)) = denom x n (row i y) := by
  unfold accD accC accB accA
  rw [Pay.k1_pay1_apply, Pay.k1_pay1_apply, Pay.k1_pay1_apply, Pay.k1_pay1_apply, Pay.k1_pay3_apply,
    Pay.k1_pay7_apply, Pay.k1_pay7_apply, Pay.k1_pay7_apply, Pay.k1_pay7_apply]
  rw [acc_tiles (fun j q => Pay.expRowSum (k1_pay5 xb) (nb j q) y)]
  unfold denom
  rw [sum_cols (fun c => Ideal.exp (logit x n (row i y) c))]
  refine Finset.sum_congr rfl fun j _ => Finset.sum_congr rfl fun q _ => ?_
  exact chunk_eq x n hx hn i xb hxb nb hnb j q y

include hx hp hn hxb hpb hnb in
/-- The value the kernel stores for row `y` of the block: similarity minus the logarithm of the denominator. -/
theorem block_out (y : Fin 2048) :
    k1_pay2 (k1_pay6 xb pb) (accD xb nb) (ix2 y (0 : Fin 1))
      = sim x p (row i y) - Ideal.log (denom x n (row i y)) := by
  rw [Pay.k1_pay2_apply, pay6_sim x p hx hp i xb pb hxb hpb y, accD_denom x n hx hn i xb hxb nb hnb y]

end Block

end Cert.KernelIdeal.Bridge

end
-- ==== Proof.IdealTail.lean ====
/-
  The last five operations of the kernel's program, over the extended reals.

  After the two kernel launches the program holds an 8192 × 1 array of per-row terms.  The remaining operations sum it
  over both axes from zero, negate the sum and divide by the exact value of the word 0x46000000.  Whatever the buffers
  hold before these operations, the result buffer afterwards is that quotient at its one index.
-/
import proofs.«172893_j85521388798178_2_alg».proof.Proof.Gen.KernelIdeal.Launch
import Idealize.ShloMosaic.Lib.StableHlo.Run
import Idealize.ShloMosaic.Lib.ValueIdx
import Idealize.ShloMosaic.PureOps.Ideal.Laws

noncomputable section

namespace Cert.KernelIdeal.Tail

open Cert.KernelIdeal Cert.KernelIdeal.Gen Idealize.ShloMosaic Idealize.ShloMosaic.ValueIdx Idealize.ShloMosaic.StableHlo

/-- The index set of an n × 1 array is the range of its first coordinate. -/
def idxEquivCol {n : Nat} : (⟨2, ![n, 1]⟩ : Shape).Idx ≃ Fin n where
  toFun j := j 0
  invFun r := ix2 r (0 : Fin 1)
  left_inv j := by
    funext a
    match a with
    | ⟨0, _⟩ => rfl
    | ⟨1, _⟩ => exact Fin.ext (by have := idx2_lt1 j; show 0 = (j 1).val; omega)
  right_inv _ := rfl

/-- A sum over the index set of an n × 1 array is the sum over the first coordinate. -/
theorem sum_idxCol {M : Type*} [AddCommMonoid M] {n : Nat} (f : (⟨2, ![n, 1]⟩ : Shape).Idx → M) :
    ∑ j, f j = ∑ r : Fin n, f (ix2 r (0 : Fin 1)) := by
  rw [← Equiv.sum_comp (idxEquivCol (n := n)).symm f]
  rfl

/-- The sum of an 8192 × 1 array over both axes, from zero, is the sum of its column. -/
theorem reduce_col (y : (⟨S8192x1, .f32⟩ : BufTy).Contents (Elt Ideal)) (i : S_.Idx) :
    Host.reduceAdd (F := Ideal) y (constant S_ .f32 0x00000000#32) reducesTo_S8192x1_S_d0_1 h_S_ i
      = ∑ r : Fin 8192, y (ix2 r (0 : Fin 1)) := by
  simp only [Host.reduceAdd, Ideal.hostReduceAdd_def]
  rw [Ideal.hostReduceAdd_total reducesTo_S8192x1_S_d0_1 (fun b => b.elim0) y _ i, constant_apply,
    Ideal.ofBits_zero_f32, zero_add, sum_idxCol]

/-- The result buffer after the five closing operations, from any contents of the buffers before them. -/
theorem tail_v4 (W : Valuation τ sig (Elt Ideal)) :
    StableHlo.after (hostOps2 (F := Ideal)) W (Proc.devRef .tc main_v4)
      = fun _ => Ideal.div (-((∑ r : Fin 8192, W (Proc.devRef .tc main_v1) (ix2 r (0 : Fin 1))) : EReal))
          (Ideal.ofBits .f32 0x46000000#32) := by
  after_results
  funext i
  exact congrArg (fun t : EReal => Ideal.div (-t) (Ideal.ofBits .f32 0x46000000#32))
    (reduce_col (W (Proc.devRef .tc main_v1)) i)

end Cert.KernelIdeal.Tail

end
-- ==== Proof.FiniteInputs.lean ====
import proofs.«172893_j85521388798178_2_alg».proof.Defs
import proofs.«172893_j85521388798178_2_alg».proof.Proof.Gen.Pre_finite_inputs
import Idealize.ShloMosaic.Lib.ReduceAll
import Idealize.ShloMosaic.Lib.ValueIdx
import Idealize.ShloMosaic.PureOps.Ideal.Laws

/-!
  The precondition read back: every entry of the three argument arrays is a real number.

  The precondition is the conjunction, over the three arrays, of "every entry x has |x| < +∞" (a reduction by
  ∧ over all indices of the comparison of max(x, −x) with +∞).  On the extended reals |x| < +∞ excludes exactly
  the two infinities: max(⊥, −⊥) = max(⊤, −⊤) = ⊤.
-/

noncomputable section

namespace Cert.FiniteIn

open Idealize.ShloMosaic Idealize.SL.Sem
open Cert.Pre_finite_inputs

/-- The shape of rank 0 has a single index. -/
instance : Subsingleton S_.Idx := ⟨fun a b => funext fun d => d.elim0⟩

/-- An extended real x with max(x, −x) < +∞ is a real. -/
theorem real_of_abs_lt_top (x : EReal)
    (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x using EReal.rec with
  | bot => simp [Ideal.cmp] at h
  | coe a => exact ⟨a, rfl⟩
  | top => simp [Ideal.cmp] at h

/-- If the comparison |x i| < +∞ holds at every index of an array, every entry is a real. -/
theorem entries_real {s : Shape} (x : FVec Ideal s .f32) (bc : S_.BroadcastsInDim s (![] : Fin 0 → Fin s.rank))
    (h : ∀ i, cmpf .olt (Host.absf x) (broadcastInDim s ![] bc (constant S_ .f32 0x7F800000#32)) i = 1#1)
    (i : s.Idx) : ∃ a : ℝ, x i = (a : EReal) :=
  real_of_abs_lt_top (x i) (h i)

/-- Under the precondition every entry of each of the three argument arrays is a real. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S8192x512.Idx, ∃ a : ℝ,
        m ((c.tc : Thread Cert.KernelIdeal.nD Cert.KernelIdeal.τ).loc Cert.KernelIdeal.main_arg0) i = (a : EReal))
    ∧ (∀ i : S8192x512.Idx, ∃ a : ℝ,
        m ((c.tc : Thread Cert.KernelIdeal.nD Cert.KernelIdeal.τ).loc Cert.KernelIdeal.main_arg1) i = (a : EReal))
    ∧ (∀ i : S16384x512.Idx, ∃ a : ℝ,
        m ((c.tc : Thread Cert.KernelIdeal.nD Cert.KernelIdeal.τ).loc Cert.KernelIdeal.main_arg2) i = (a : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨fun i => entries_real _ _ (Host.reduce_andi_all _ _ _ _ ValueIdx.ix0 h0') i,
    fun i => entries_real _ _ (Host.reduce_andi_all _ _ _ _ ValueIdx.ix0 h1) i,
    fun i => entries_real _ _ (Host.reduce_andi_all _ _ _ _ ValueIdx.ix0 h2) i⟩

end Cert.FiniteIn

end
-- ==== Proof.IdealLoss.lean ====
/-
  The idealized kernel's result is the loss of the specification.
  After the run the scalar result is −(Σ over the 8192 entries of the second region's output column)/8192.
  That column's block i (2048 rows) is written at the last column tile of row block i and holds, row y,
     pay2 (similarity) (accumulated denominator) = sim r − log(denom r),   r = 2048 i + y,
  because the similarity and normalised-x scratch are filled from the row block's x and positive rows, each
  column tile's addend is the exponential row sum over its 4096 normalised negative rows (four slices of 1024),
  and the normalised negatives are what the first region wrote: each negative row times the reciprocal square
  root of its clamped sum of squares.  Finite inputs make every row a real vector, where the kernel's
  v·rsqrt(max(Σv², ε²)) is the reference's v / max(√Σv², ε).
-/
import proofs.«172893_j85521388798178_2_alg».proof.Proof.IdealRun
import proofs.«172893_j85521388798178_2_alg».proof.Proof.IdealClosed
import proofs.«172893_j85521388798178_2_alg».proof.Proof.IdealValue0
import proofs.«172893_j85521388798178_2_alg».proof.Proof.IdealValue1
import proofs.«172893_j85521388798178_2_alg».proof.Proof.IdealBlocks1
import proofs.«172893_j85521388798178_2_alg».proof.Proof.IdealBridge
import proofs.«172893_j85521388798178_2_alg».proof.Proof.IdealTail
import proofs.«172893_j85521388798178_2_alg».proof.Proof.FiniteInputs

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Cert.CosineSpec

variable (m : (ℓ : Loc nD τ sig) → Buf (Elt Ideal) ℓ) (ρ : Dev nD → PrngReg)

/-- The rows of the three argument arrays. -/
def argX (c : Dev nD) : Fin 8192 → Fin 512 → EReal := fun r d => m ((c.tc : Thread nD τ).loc main_arg0) (ix2 r d)
def argP (c : Dev nD) : Fin 8192 → Fin 512 → EReal := fun r d => m ((c.tc : Thread nD τ).loc main_arg1) (ix2 r d)
def argN (c : Dev nD) : Fin 16384 → Fin 512 → EReal := fun r d => m ((c.tc : Thread nD τ).loc main_arg2) (ix2 r d)

/-- What the second region finds in the arrays it stages: the arguments as launched, and the normalised negatives. -/
theorem Vb_arg0 (c : Dev nD) : Vb m c main_arg0 = m ((c.tc : Thread nD τ).loc main_arg0) := Wb_of_ne m c main_arg0 (by decide)
theorem Vb_arg1 (c : Dev nD) : Vb m c main_arg1 = m ((c.tc : Thread nD τ).loc main_arg1) := Wb_of_ne m c main_arg1 (by decide)
theorem Vb_v0 (c : Dev nD) : Vb m c main_v0 = negn (m ((c.tc : Thread nD τ).loc main_arg2)) :=
  (Wb_arr m c 1).trans (final0 (Va m) c)

/-- The four 1024-row slices of each column tile of the normalised negatives. -/
def nbOf (N : Fin 4 → Vec Ideal S4096x512 .bf16) : Fin 4 → Fin 4 → Vec Ideal S1024x512 .bf16 := fun j q => match q with
  | ⟨0, _⟩ => View.ld (N j) (Rect.unit (s := S4096x512) ![0, 0] S1024x512.size Facts₀.inb_S4096x512_S1024x512_0_0)
  | ⟨1, _⟩ => View.ld (N j) (Rect.unit (s := S4096x512) ![1024, 0] S1024x512.size Facts₀.inb_S4096x512_S1024x512_1024_0)
  | ⟨2, _⟩ => View.ld (N j) (Rect.unit (s := S4096x512) ![2048, 0] S1024x512.size Facts₀.inb_S4096x512_S1024x512_2048_0)
  | ⟨3, _⟩ => View.ld (N j) (Rect.unit (s := S4096x512) ![3072, 0] S1024x512.size Facts₀.inb_S4096x512_S1024x512_3072_0)
  | ⟨_ + 4, h⟩ => absurd h (by omega)

theorem nbOf_0 (N : Fin 4 → Vec Ideal S4096x512 .bf16) (j : Fin 4) (h : 0 < 4) : nbOf N j ⟨0, h⟩ = View.ld (N j) (Rect.unit (s := S4096x512) ![0, 0] S1024x512.size Facts₀.inb_S4096x512_S1024x512_0_0) := rfl
theorem nbOf_1 (N : Fin 4 → Vec Ideal S4096x512 .bf16) (j : Fin 4) (h : 1 < 4) : nbOf N j ⟨1, h⟩ = View.ld (N j) (Rect.unit (s := S4096x512) ![1024, 0] S1024x512.size Facts₀.inb_S4096x512_S1024x512_1024_0) := rfl
theorem nbOf_2 (N : Fin 4 → Vec Ideal S4096x512 .bf16) (j : Fin 4) (h : 2 < 4) : nbOf N j ⟨2, h⟩ = View.ld (N j) (Rect.unit (s := S4096x512) ![2048, 0] S1024x512.size Facts₀.inb_S4096x512_S1024x512_2048_0) := rfl
theorem nbOf_3 (N : Fin 4 → Vec Ideal S4096x512 .bf16) (j : Fin 4) (h : 3 < 4) : nbOf N j ⟨3, h⟩ = View.ld (N j) (Rect.unit (s := S4096x512) ![3072, 0] S1024x512.size Facts₀.inb_S4096x512_S1024x512_3072_0) := rfl

/-- A negative row as the first region left it, in the specification's words. -/
theorem negn_row (c : Dev nD) (r : Fin 16384) (d : Fin 512) :
    negn (m ((c.tc : Thread nD τ).loc main_arg2)) (ix2 r d)
      = argN m c r d * Ideal.rsqrt (max (sumSq (argN m c) r) Pay.E) := rfl

/-- One row's term of the loss: its similarity with the positive minus the log of its softmax denominator. -/
def rowLoss (c : Dev nD) : Fin 8192 → EReal := fun r => sim (argX m c) (argP m c) r - Ideal.log (denom (argX m c) (argN m c) r)

/-- Row y of the block written at the last column tile of a row block is sim − log denom of row 2048 i + y. -/
theorem out_rows (c : Dev nD)
    (hx : ∀ r k, ∃ a : ℝ, argX m c r k = (a : EReal)) (hp : ∀ r k, ∃ a : ℝ, argP m c r k = (a : EReal))
    (hn : ∀ r k, ∃ a : ℝ, argN m c r k = (a : EReal))
    (t : Fin cfg1.N) (ht : t.val % 4 = 3) (y : Fin 2048) :
    (outsAt1 (F := Ideal) (Vb m) c t.val t.isLt).1 (ix2 y (0 : Fin 1))
      = rowLoss m c ⟨2048 * (t.val / 4) + y.val, by have := t.isLt; have : cfg1.N = 16 := N_1; have := y.isLt; omega⟩ := by
  have hN : cfg1.N = 16 := N_1
  have htl := t.isLt
  have hi : t.val / 4 < 4 := by omega
  have key : outsAt1 (F := Ideal) (Vb m) c t.val t.isLt
      = outsAt1 (F := Ideal) (Vb m) c (pt ⟨t.val / 4, hi⟩ 3).val (pt ⟨t.val / 4, hi⟩ 3).isLt :=
    outsAt1_congr (Vb m) c (by show t.val = 4 * (t.val / 4) + 3; omega) _ _
  rw [key, out_closed]
  have hxb : ∀ (y : Fin 2048) (d : Fin 512),
      iblk1 (Vb m) c 0 (pt ⟨t.val / 4, hi⟩ 0) (ix2 y d) = argX m c (Bridge.row ⟨t.val / 4, hi⟩ y) d := by
    intro y d
    rw [Val1.blk0_apply (Vb m) c (pt ⟨t.val / 4, hi⟩ 0) y d, Vb_arg0]
    exact congrArg (fun r => m ((c.tc : Thread nD τ).loc main_arg0) (ix2 r d))
      (Fin.ext (by show 2048 * ((4 * (t.val / 4) + 0) / 4) + y.val = 2048 * (t.val / 4) + y.val; omega))
  have hpb : ∀ (y : Fin 2048) (d : Fin 512),
      iblk1 (Vb m) c 1 (pt ⟨t.val / 4, hi⟩ 0) (ix2 y d) = argP m c (Bridge.row ⟨t.val / 4, hi⟩ y) d := by
    intro y d
    rw [Val1.blk1_apply (Vb m) c (pt ⟨t.val / 4, hi⟩ 0) y d, Vb_arg1]
    exact congrArg (fun r => m ((c.tc : Thread nD τ).loc main_arg1) (ix2 r d))
      (Fin.ext (by show 2048 * ((4 * (t.val / 4) + 0) / 4) + y.val = 2048 * (t.val / 4) + y.val; omega))
  have hnb : ∀ (j q : Fin 4) (k : Fin 1024) (d : Fin 512),
      nbOf (fun j => iblk1 (Vb m) c 2 (pt ⟨t.val / 4, hi⟩ j)) j q (ix2 k d)
        = argN m c (Bridge.col j q k) d * Ideal.rsqrt (max (sumSq (argN m c) (Bridge.col j q k)) Pay.E) := by
    intro j q k d
    have hj := j.isLt
    obtain ⟨q, hq⟩ := q
    match q, hq with
    | 0, _ =>
      rw [nbOf_0, Val1.blk2_slice0_apply (Vb m) c (pt ⟨t.val / 4, hi⟩ j) k d, Vb_v0, ← negn_row]
      exact congrArg (fun r => negn (m ((c.tc : Thread nD τ).loc main_arg2)) (ix2 r d))
        (Fin.ext (by show 4096 * ((4 * (t.val / 4) + j.val) % 4) + 0 + k.val = 4096 * j.val + 1024 * 0 + k.val; omega))
    | 1, _ =>
      rw [nbOf_1, Val1.blk2_slice1024_apply (Vb m) c (pt ⟨t.val / 4, hi⟩ j) k d, Vb_v0, ← negn_row]
      exact congrArg (fun r => negn (m ((c.tc : Thread nD τ).loc main_arg2)) (ix2 r d))
        (Fin.ext (by show 4096 * ((4 * (t.val / 4) + j.val) % 4) + 1024 + k.val = 4096 * j.val + 1024 * 1 + k.val; omega))
    | 2, _ =>
      rw [nbOf_2, Val1.blk2_slice2048_apply (Vb m) c (pt ⟨t.val / 4, hi⟩ j) k d, Vb_v0, ← negn_row]
      exact congrArg (fun r => negn (m ((c.tc : Thread nD τ).loc main_arg2)) (ix2 r d))
        (Fin.ext (by show 4096 * ((4 * (t.val / 4) + j.val) % 4) + 2048 + k.val = 4096 * j.val + 1024 * 2 + k.val; omega))
    | 3, _ =>
      rw [nbOf_3, Val1.blk2_slice3072_apply (Vb m) c (pt ⟨t.val / 4, hi⟩ j) k d, Vb_v0, ← negn_row]
      exact congrArg (fun r => negn (m ((c.tc : Thread nD τ).loc main_arg2)) (ix2 r d))
        (Fin.ext (by show 4096 * ((4 * (t.val / 4) + j.val) % 4) + 3072 + k.val = 4096 * j.val + 1024 * 3 + k.val; omega))
    | n + 4, h => exact absurd h (by omega)
  exact Bridge.block_out (argX m c) (argP m c) (argN m c) hx hp hn ⟨t.val / 4, hi⟩
    (iblk1 (Vb m) c 0 (pt ⟨t.val / 4, hi⟩ 0)) (iblk1 (Vb m) c 1 (pt ⟨t.val / 4, hi⟩ 0)) hxb hpb
    (nbOf (fun j => iblk1 (Vb m) c 2 (pt ⟨t.val / 4, hi⟩ j))) hnb y

/-- THE VALUE: under the finiteness precondition the run ends with the scalar result at the specification's loss
    of the argument arrays, and the arguments as launched. -/
theorem run_loss (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v4) = (fun _ => loss (argX m c) (argP m c) (argN m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_all (F := Ideal) m ρ)
  obtain ⟨hx, hp, hn⟩ := Cert.FiniteIn.finite_of_pre m hpre c
  refine ⟨(h c _ (mem_uc main_v4 (by decide))).trans ?_,
    (h c _ (mem_uc main_arg0 (by decide))).trans (Wd_main_arg0 m c),
    (h c _ (mem_uc main_arg1 (by decide))).trans (Wd_main_arg1 m c),
    (h c _ (mem_uc main_arg2 (by decide))).trans (Wd_main_arg2 m c)⟩
  have e0 : (dat1 (F := Ideal) (Vb m) c).arrAt 3 cfg1.N = fun i : S8192x1.Idx => rowLoss m c (i 0) :=
    Val1.final1 (Vb m) c (rowLoss m c) (fun t ht y =>
      out_rows m c (fun r k => hx (ix2 r k)) (fun r k => hp (ix2 r k)) (fun r k => hn (ix2 r k)) t ht y)
  have e1 : Wc m c (Proc.devRef .tc main_v1) = fun i : S8192x1.Idx => rowLoss m c (i 0) := (Wc_arr m c 3).trans e0
  show StableHlo.after (hostOps2 (F := Ideal)) (Wc m c) (Proc.devRef .tc main_v4) = _
  rw [Tail.tail_v4 (Wc m c), e1]
  funext _
  unfold loss
  exact congrArg (fun s : EReal => Ideal.div (-s) (Ideal.ofBits .f32 0x46000000#32)) (Finset.sum_congr rfl fun r _ => rfl)

end Cert.KernelIdeal.Hand

end
-- ==== Proof.RefLoss.lean ====
/-
  The reference program computes the loss of `Cert.CosineSpec`.

  Reading the reference's result one operation at a time, outermost first, every intermediate array is one of the
  functions of the specification evaluated at the coordinates of the index: the row sum of squares, the clamped norm,
  the unit vector, the two cosine similarities, the softmax denominator, and last the mean.  No finiteness is needed:
  both sides are the same expression over the extended reals.
-/
import proofs.«172893_j85521388798178_2_alg».proof.Proof.Gen.ReferenceIdeal.Read
import proofs.«172893_j85521388798178_2_alg».proof.Proof.Spec
import Idealize.ShloMosaic.Lib.ValueIdx

noncomputable section

namespace Cert.RefLoss

open Cert.ReferenceIdeal Cert.ReferenceIdeal.Read Idealize.ShloMosaic Idealize.ShloMosaic.ValueIdx Cert.CosineSpec

/-- An array of 8192 rows of 512 extended reals. -/
abbrev A8 : Type := (⟨S8192x512, .f32⟩ : BufTy).Contents (Elt Ideal)
/-- An array of 16384 rows of 512 extended reals. -/
abbrev A16 : Type := (⟨S16384x512, .f32⟩ : BufTy).Contents (Elt Ideal)

/-- The rows of an 8192 × 512 array. -/
def rows8 (x : A8) : Fin 8192 → Fin 512 → EReal := fun r d => x (ix2 r d)
/-- The rows of a 16384 × 512 array. -/
def rows16 (x : A16) : Fin 16384 → Fin 512 → EReal := fun r d => x (ix2 r d)

/-! ### The index maps of the reductions and the contraction, by coordinates -/

theorem idx_v1 (i : S8192.Idx) (k : Fin 512) : idx_main_v1 i k = ix2 (n0 := 8192) (n1 := 512) (i 0) k := by
  funext a; match a with | ⟨0, _⟩ => rfl | ⟨1, _⟩ => rfl
theorem idx_v9 (i : S8192.Idx) (k : Fin 512) : idx_main_v9 i k = ix2 (n0 := 8192) (n1 := 512) (i 0) k := by
  funext a; match a with | ⟨0, _⟩ => rfl | ⟨1, _⟩ => rfl
theorem idx_v17 (i : S16384.Idx) (k : Fin 512) : idx_main_v17 i k = ix2 (n0 := 16384) (n1 := 512) (i 0) k := by
  funext a; match a with | ⟨0, _⟩ => rfl | ⟨1, _⟩ => rfl
theorem idx_v25 (i : S8192.Idx) (k : Fin 512) : idx_main_v25 i k = ix2 (n0 := 8192) (n1 := 512) (i 0) k := by
  funext a; match a with | ⟨0, _⟩ => rfl | ⟨1, _⟩ => rfl
theorem idx_v28 (i : S8192.Idx) (k : Fin 16384) : idx_main_v28 i k = ix2 (n0 := 8192) (n1 := 16384) (i 0) k := by
  funext a; match a with | ⟨0, _⟩ => rfl | ⟨1, _⟩ => rfl
theorem lidx_v26 (r : Fin 8192) (c : Fin 16384) (k : Fin 512) : lidx_main_v26 (ix2 r c) k = ix2 r k := by
  funext a; match a with | ⟨0, _⟩ => rfl | ⟨1, _⟩ => rfl
theorem ridx_v26 (r : Fin 8192) (c : Fin 16384) (k : Fin 512) : ridx_main_v26 (ix2 r c) k = ix2 c k := by
  funext a; match a with | ⟨0, _⟩ => rfl | ⟨1, _⟩ => rfl

/-! ### Sum of squares of a row -/

theorem v1_eq (x0 : A8) (i : S8192.Idx) : val_main_v1 (F := Ideal) x0 i = sumSq (rows8 x0) (i 0) := by
  rw [val_main_v1_apply, val_main_cst_apply, Ideal.ofBits_def, Ideal.ofBits_zero_f32, zero_add]
  refine Finset.sum_congr rfl fun k _ => ?_
  rw [val_main_v0_apply, Ideal.mulf_def, idx_v1]
  rfl
theorem v9_eq (x1 : A8) (i : S8192.Idx) : val_main_v9 (F := Ideal) x1 i = sumSq (rows8 x1) (i 0) := by
  rw [val_main_v9_apply, val_main_cst_1_apply, Ideal.ofBits_def, Ideal.ofBits_zero_f32, zero_add]
  refine Finset.sum_congr rfl fun k _ => ?_
  rw [val_main_v8_apply, Ideal.mulf_def, idx_v9]
  rfl
theorem v17_eq (x2 : A16) (i : S16384.Idx) : val_main_v17 (F := Ideal) x2 i = sumSq (rows16 x2) (i 0) := by
  rw [val_main_v17_apply, val_main_cst_3_apply, Ideal.ofBits_def, Ideal.ofBits_zero_f32, zero_add]
  refine Finset.sum_congr rfl fun k _ => ?_
  rw [val_main_v16_apply, Ideal.mulf_def, idx_v17]
  rfl

/-! ### The clamped norm of a row -/

theorem v5_eq (x0 : A8) (j : S8192x1.Idx) : val_main_v5 (F := Ideal) x0 j = rowNorm (rows8 x0) (j 0) := by
  rw [val_main_v5_apply, val_main_v3_apply, val_main_v2_apply, v1_eq, val_main_v4_apply, val_main_cst_0_apply,
    Ideal.maximumf_def, Ideal.hostUnary_sqrt_def, Ideal.ofBits_def]
  rfl
theorem v13_eq (x1 : A8) (j : S8192x1.Idx) : val_main_v13 (F := Ideal) x1 j = rowNorm (rows8 x1) (j 0) := by
  rw [val_main_v13_apply, val_main_v11_apply, val_main_v10_apply, v9_eq, val_main_v12_apply, val_main_cst_2_apply,
    Ideal.maximumf_def, Ideal.hostUnary_sqrt_def, Ideal.ofBits_def]
  rfl
theorem v21_eq (x2 : A16) (j : S16384x1.Idx) : val_main_v21 (F := Ideal) x2 j = rowNorm (rows16 x2) (j 0) := by
  rw [val_main_v21_apply, val_main_v19_apply, val_main_v18_apply, v17_eq, val_main_v20_apply, val_main_cst_4_apply,
    Ideal.maximumf_def, Ideal.hostUnary_sqrt_def, Ideal.ofBits_def]
  rfl

/-! ### The unit vector of a row -/

theorem v7_eq (x0 : A8) (r : Fin 8192) (d : Fin 512) : val_main_v7 (F := Ideal) x0 (ix2 r d) = unit (rows8 x0) r d := by
  rw [val_main_v7_apply, val_main_v6_apply, v5_eq, Ideal.hostDivf_def]
  rfl
theorem v15_eq (x1 : A8) (r : Fin 8192) (d : Fin 512) : val_main_v15 (F := Ideal) x1 (ix2 r d) = unit (rows8 x1) r d := by
  rw [val_main_v15_apply, val_main_v14_apply, v13_eq, Ideal.hostDivf_def]
  rfl
theorem v23_eq (x2 : A16) (r : Fin 16384) (d : Fin 512) : val_main_v23 (F := Ideal) x2 (ix2 r d) = unit (rows16 x2) r d := by
  rw [val_main_v23_apply, val_main_v22_apply, v21_eq, Ideal.hostDivf_def]
  rfl

/-! ### The two cosine similarities -/

theorem v25_eq (x0 x1 : A8) (i : S8192.Idx) : val_main_v25 (F := Ideal) x0 x1 i = sim (rows8 x0) (rows8 x1) (i 0) := by
  rw [val_main_v25_apply, val_main_cst_5_apply, Ideal.ofBits_def, Ideal.ofBits_zero_f32, zero_add]
  refine Finset.sum_congr rfl fun k _ => ?_
  rw [val_main_v24_apply, Ideal.mulf_def, idx_v25]
  exact congrArg₂ (· * ·) (v7_eq x0 (i 0) k) (v15_eq x1 (i 0) k)

theorem v26_eq (x0 : A8) (x2 : A16) (r : Fin 8192) (c : Fin 16384) :
    val_main_v26 (F := Ideal) x0 x2 (ix2 r c) = logit (rows8 x0) (rows16 x2) r c := by
  rw [val_main_v26_apply]
  refine Finset.sum_congr rfl fun k _ => ?_
  rw [lidx_v26, ridx_v26, v7_eq, v23_eq]

/-! ### The softmax denominator -/

theorem v28_eq (x0 : A8) (x2 : A16) (i : S8192.Idx) : val_main_v28 (F := Ideal) x0 x2 i = denom (rows8 x0) (rows16 x2) (i 0) := by
  rw [val_main_v28_apply, val_main_cst_6_apply, Ideal.ofBits_def, Ideal.ofBits_zero_f32, zero_add]
  refine Finset.sum_congr rfl fun k _ => ?_
  rw [val_main_v27_apply, Ideal.hostUnary_exp_def, idx_v28]
  exact congrArg Ideal.exp (v26_eq x0 x2 (i 0) k)

/-! ### One term of the mean, and the mean -/

theorem v30_eq (x0 x1 : A8) (x2 : A16) (i : S8192.Idx) :
    val_main_v30 (F := Ideal) x0 x1 x2 i
      = sim (rows8 x0) (rows8 x1) (i 0) - Ideal.log (denom (rows8 x0) (rows16 x2) (i 0)) := by
  rw [val_main_v30_apply, val_main_v29_apply, v25_eq, v28_eq, Ideal.subf_def, Ideal.hostUnary_log_def]

/-- A rank-1 index set is its one coordinate range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

theorem v31_eq (x0 x1 : A8) (x2 : A16) (i : S_.Idx) :
    val_main_v31 (F := Ideal) x0 x1 x2 i
      = ∑ r : Fin 8192, (sim (rows8 x0) (rows8 x1) r - Ideal.log (denom (rows8 x0) (rows16 x2) r)) := by
  rw [val_main_v31_apply, val_main_cst_7_apply, Ideal.ofBits_def, Ideal.ofBits_zero_f32, zero_add, sum_idx1]
  refine Finset.sum_congr rfl fun r _ => ?_
  rw [v30_eq]

/-- The reference's result is the loss of the specification at the rows of its three arguments. -/
theorem ref_loss (x0 x1 : (⟨Cert.ReferenceIdeal.S8192x512, .f32⟩ : BufTy).Contents (Elt Ideal))
    (x2 : (⟨Cert.ReferenceIdeal.S16384x512, .f32⟩ : BufTy).Contents (Elt Ideal)) (i : Cert.ReferenceIdeal.S_.Idx) :
    Cert.ReferenceIdeal.Read.val_main_v33 (F := Ideal) x0 x1 x2 i
      = Cert.CosineSpec.loss (fun r d => x0 (ix2 r d)) (fun r d => x1 (ix2 r d)) (fun c d => x2 (ix2 c d)) := by
  rw [val_main_v33_apply, val_main_v32_apply, v31_eq, val_main_cst_8_apply, Ideal.hostDivf_def, Ideal.hostNegf_def,
    Ideal.negf_def, Ideal.ofBits_def]
  rfl

end Cert.RefLoss

end
-- ==== Proof.lean ====
/-
  The claim of this certificate: the kernel and its idealization run and leave their arguments unchanged, the
  reference does too, the idealization differs from the kernel only in naming the clamp ε² (the square of the
  reference's clamp ε, as a rational), and over the extended reals the idealized kernel and the reference end with
  equal results from equal arguments.

  The last is the mathematics.  Both programs compute, from arrays x, p (8192 rows of 512) and n (16384 rows of 512),
      loss = −(Σ_r (sim r − log(denom r))) / 8192,
  with sim r the inner product of the unit vectors of row r of x and of p, and denom r the sum over the 16384 rows c
  of n of exp of the inner product of the unit vectors of row r of x and row c of n.  The reference divides a row by
  max(‖v‖, ε); the kernel multiplies it by the reciprocal square root of max(‖v‖², ε²); for rows of reals these are one
  function, and the precondition makes every entry a real.  The reference's result is read off its operations one at
  a time; the kernel's is assembled from its two launches — the unit vectors of n, then per block of 2048 rows the
  term sim − log(denom), the denominator accumulated over four steps of four blocks of 1024 rows — and the closing
  host operations, which sum the 8192 terms, negate and divide by 8192.
-/
import proofs.«172893_j85521388798178_2_alg».proof.Defs
import proofs.«172893_j85521388798178_2_alg».proof.Proof.Gen.Kernel
import proofs.«172893_j85521388798178_2_alg».proof.Proof.Gen.Kernel.Skeleton
import proofs.«172893_j85521388798178_2_alg».proof.Proof.Gen.Kernel.Launch
import proofs.«172893_j85521388798178_2_alg».proof.Proof.Gen.Kernel.Regions
import proofs.«172893_j85521388798178_2_alg».proof.Proof.Gen.Kernel.Points
import proofs.«172893_j85521388798178_2_alg».proof.Proof.Gen.KernelIdeal
import proofs.«172893_j85521388798178_2_alg».proof.Proof.Gen.KernelIdeal.Skeleton
import proofs.«172893_j85521388798178_2_alg».proof.Proof.Gen.KernelIdeal.Launch
import proofs.«172893_j85521388798178_2_alg».proof.Proof.Gen.KernelIdeal.Regions
import proofs.«172893_j85521388798178_2_alg».proof.Proof.Gen.KernelIdeal.Points
import proofs.«172893_j85521388798178_2_alg».proof.Proof.Gen.ReferenceIdeal
import proofs.«172893_j85521388798178_2_alg».proof.Proof.Gen.Pre_finite_inputs
import proofs.«172893_j85521388798178_2_alg».proof.Proof.Gen.ReferenceIdeal.Run
import proofs.«172893_j85521388798178_2_alg».proof.Proof.Gen.ReferenceIdeal.Read
import Idealize.ShloMosaic.Adequacy
import Idealize.ShloMosaic.Init
import proofs.«172893_j85521388798178_2_alg».proof.Proof.BitsRun
import proofs.«172893_j85521388798178_2_alg».proof.Proof.IdealRun
import proofs.«172893_j85521388798178_2_alg».proof.Proof.IdealLoss
import proofs.«172893_j85521388798178_2_alg».proof.Proof.RefLoss

noncomputable section

namespace Cert.Proof

open Idealize.ShloMosaic Idealize.SL.Sem

/-- The kernel as printed runs and leaves its three arguments unchanged. -/
theorem frame_Kernel : Cert.frame_Kernel := fun m ρ _ => Cert.Kernel.Hand.frame_all (F := Bits) m ρ

/-- The idealized kernel runs and leaves its three arguments unchanged. -/
theorem frame_KernelIdeal : Cert.frame_KernelIdeal := fun m ρ _ => Cert.KernelIdeal.Hand.frame_all (F := Ideal) m ρ

/-- The reference runs and leaves its three arguments unchanged: its run also gives the result, dropped here. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The idealization's three rewrites are one: the clamp constant of both launches is named ε², and the
    certificate's table gives that name the rational 5316911940649 · 2⁻¹²². -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
   IdealRules.named_const.statement Cert.KernelIdeal.κ "eps_sq" .f32 0x179ABE15#32
      ((5316911940649 / 5316911983139663491615228241121378304 : ℝ) : EReal) rfl,
   IdealRules.named_const.statement Cert.KernelIdeal.κ "eps_sq" .f32 0x179ABE15#32
      ((5316911940649 / 5316911983139663491615228241121378304 : ℝ) : EReal) rfl⟩

/-- Over the extended reals, from equal arguments of real entries, the idealized kernel and the reference both end
    at the loss of the specification evaluated at the rows of the arguments. -/
theorem algebraic : Cert.algebraic_KernelIdeal_ReferenceIdeal := by
  intro m ρ m' ρ' hpre hagree
  refine ⟨_, Cert.KernelIdeal.Hand.run_loss m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  funext i
  rw [(hagree c).1, (hagree c).2.1, (hagree c).2.2]
  exact Cert.RefLoss.ref_loss _ _ _ i

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
